-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x63 : Shape := ⟨2, ![262144, 63]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x4 : Shape := ⟨2, ![256, 4]⟩
abbrev S4 : Shape := ⟨1, ![4]⟩
abbrev S256x64 : Shape := ⟨2, ![256, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S262144x63 : S_.BroadcastsInDim S262144x63 (![] : Fin 0 → Fin S262144x63.rank)
  reducesTo_S262144x63_S_d0_1 : S262144x63.ReducesTo [0, 1] S_
  h_S_ : 0 < S_.numel
  bcast_S_S63x256 : S_.BroadcastsInDim S63x256 (![] : Fin 0 → Fin S63x256.rank)
  reducesTo_S63x256_S_d0_1 : S63x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S319x256 : S_.BroadcastsInDim S319x256 (![] : Fin 0 → Fin S319x256.rank)
  reducesTo_S319x256_S_d0_1 : S319x256.ReducesTo [0, 1] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_arg21 : FVec F S64x3 .f32) (main_arg22 : FVec F S3 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x3 .f32 := Host.absf main_arg21
  let main_cst_40 : FVec F S_ .f32 := constant S_ .f32 0x7F800000#32
  let main_v105 : FVec F S64x3 .f32 := broadcastInDim S64x3 ![] bcast_S_S64x3 main_cst_40
  let main_v106 : IVec S64x3 1 := cmpf .olt main_v104 main_v105
  let main_c_41 : IVec S_ 1 := constantI S_ 1 1#1
  let main_v107 : IVec S_ 1 := (fun x v => Host.reduce IntOp.andi x v reducesTo_S64x3_S_d0_1 h_S_) main_v106 main_c_41
  let main_v108 : IVec S_ 1 := andi main_v103 main_v107
  let main_v109 : FVec F S3 .f32 := Host.absf main_arg22
  let main_cst_42 : FVec F S_ .f32 := constant S_ .f32 0x7F800000#32
  let main_v110 : FVec F S3 .f32 := broadcastInDim S3 ![] bcast_S_S3 main_cst_42
  let main_v111 : IVec S3 1 := cmpf .olt main_v109 main_v110
  let main_c_43 : IVec S_ 1 := constantI S_ 1 1#1
  let main_v112 : IVec S_ 1 := (fun x v => Host.reduce IntOp.andi x v reducesTo_S3_S_d0 h_S_) main_v111 main_c_43
  let main_v113 : IVec S_ 1 := andi main_v108 main_v112
  main_v113

def fn_part5 {F : FTy → Type} [FloatOps F] (main_arg18 : FVec F S64 .f32) (main_arg19 : FVec F S64x64 .f32) (main_arg20 : FVec F S64 .f32) (main_arg21 : FVec F S64x3 .f32) (main_arg22 : FVec F S3 .f32) (main_v83 : IVec S_ 1) (main_v84 : FVec F S256x64 .f32) (main_cst_32 : FVec F S_ .f32) : IVec S_ 1 :=
  let main_v85 : FVec F S256x64 .f32 := broadcastInDim S256x64 ![] bcast_S_S256x64 main_cst_32
  let main_v86 : IVec S256x64 1 := cmpf .olt main_v84 main_v85
  let main_c_33 : IVec S_ 1 := constantI S_ 1 1#1
  let main_v87 : IVec S_ 1 := (fun x v => Host.reduce IntOp.andi x v reducesTo_S256x64_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg19
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S256 .f32) (main_arg15 : FVec F S256x4 .f32) (main_arg16 : FVec F S4 .f32) (main_arg17 : FVec F S256x64 .f32) (main_arg18 : FVec F S64 .f32) (main_arg19 : FVec F S64x64 .f32) (main_arg20 : FVec F S64 .f32) (main_arg21 : FVec F S64x3 .f32) (main_arg22 : FVec F S3 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x4 .f32 := Host.absf main_arg15
  let main_cst_28 : FVec F S_ .f32 := constant S_ .f32 0x7F800000#32
  let main_v75 : FVec F S256x4 .f32 := broadcastInDim S256x4 ![] bcast_S_S256x4 main_cst_28
  let main_v76 : IVec S256x4 1 := cmpf .olt main_v74 main_v75
  let main_c_29 : IVec S_ 1 := constantI S_ 1 1#1
  let main_v77 : IVec S_ 1 := (fun x v => Host.reduce IntOp.andi x v reducesTo_S256x4_S_d0_1 h_S_) main_v76 main_c_29
  let main_v78 : IVec S_ 1 := andi main_v73 main_v77
  let main_v79 : FVec F S4 .f32 := Host.absf main_arg16
  let main_cst_30 : FVec F S_ .f32 := constant S_ .f32 0x7F800000#32
  let main_v80 : FVec F S4 .f32 := broadcastInDim S4 ![] bcast_S_S4 main_cst_30
  let main_v81 : IVec S4 1 := cmpf .olt main_v79 main_v80
  let main_c_31 : IVec S_ 1 := constantI S_ 1 1#1
  let main_v82 : IVec S_ 1 := (fun x v => Host.reduce IntOp.andi x v reducesTo_S4_S_d0 h_S_) main_v81 main_c_31
  let main_v83 : IVec S_ 1 := andi main_v78 main_v82
  let main_v84 : FVec F S256x64 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S256x256 .f32) (main_arg12 : FVec F S256 .f32) (main_arg13 : FVec F S256x256 .f32) (main_arg14 : FVec F S256 .f32) (main_arg15 : FVec F S256x4 .f32) (main_arg16 : FVec F S4 .f32) (main_arg17 : FVec F S256x64 .f32) (main_arg18 : FVec F S64 .f32) (main_arg19 : FVec F S64x64 .f32) (main_arg20 : FVec F S64 .f32) (main_arg21 : FVec F S64x3 .f32) (main_arg22 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x4 .f32) (main_arg16 : FVec F S4 .f32) (main_arg17 : FVec F S256x64 .f32) (main_arg18 : FVec F S64 .f32) (main_arg19 : FVec F S64x64 .f32) (main_arg20 : FVec F S64 .f32) (main_arg21 : FVec F S64x3 .f32) (main_arg22 : FVec F S3 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S319x256 .f32 := Host.absf main_arg9
  let main_cst_16 : FVec F S_ .f32 := constant S_ .f32 0x7F800000#32
  let main_v45 : FVec F S319x256 .f32 := broadcastInDim S319x256 ![] bcast_S_S319x256 main_cst_16
  let main_v46 : IVec S319x256 1 := cmpf .olt main_v44 main_v45
  let main_c_17 : IVec S_ 1 := constantI S_ 1 1#1
  let main_v47 : IVec S_ 1 := (fun x v => Host.reduce IntOp.andi x v reducesTo_S319x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x4 .f32) (main_arg16 : FVec F S4 .f32) (main_arg17 : FVec F S256x64 .f32) (main_arg18 : FVec F S64 .f32) (main_arg19 : FVec F S64x64 .f32) (main_arg20 : FVec F S64 .f32) (main_arg21 : FVec F S64x3 .f32) (main_arg22 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S262144x63 .f32) (main_arg1 : FVec F S63x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x4 .f32) (main_arg16 : FVec F S4 .f32) (main_arg17 : FVec F S256x64 .f32) (main_arg18 : FVec F S64 .f32) (main_arg19 : FVec F S64x64 .f32) (main_arg20 : FVec F S64 .f32) (main_arg21 : FVec F S64x3 .f32) (main_arg22 : FVec F S3 .f32) : IVec S_ 1 :=
  let main_v0 : FVec F S262144x63 .f32 := Host.absf main_arg0
  let main_cst : FVec F S_ .f32 := constant S_ .f32 0x7F800000#32
  let main_v1 : FVec F S262144x63 .f32 := broadcastInDim S262144x63 ![] bcast_S_S262144x63 main_cst
  let main_v2 : IVec S262144x63 1 := cmpf .olt main_v0 main_v1
  let main_c : IVec S_ 1 := constantI S_ 1 1#1
  let main_v3 : IVec S_ 1 := (fun x v => Host.reduce IntOp.andi x v reducesTo_S262144x63_S_d0_1 h_S_) main_v2 main_c
  let main_v4 : FVec F S63x256 .f32 := Host.absf main_arg1
  let main_cst_0 : FVec F S_ .f32 := constant S_ .f32 0x7F800000#32
  let main_v5 : FVec F S63x256 .f32 := broadcastInDim S63x256 ![] bcast_S_S63x256 main_cst_0
  let main_v6 : IVec S63x256 1 := cmpf .olt main_v4 main_v5
  let main_c_1 : IVec S_ 1 := constantI S_ 1 1#1
  let main_v7 : IVec S_ 1 := (fun x v => Host.reduce IntOp.andi x v reducesTo_S63x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S262144x63 : Shape := ⟨2, ![262144, 63]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x4 : Shape := ⟨2, ![256, 4]⟩
abbrev S4 : Shape := ⟨1, ![4]⟩
abbrev S256x64 : Shape := ⟨2, ![256, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S262144x8 : Shape := ⟨2, ![262144, 8]⟩
abbrev S4096x63 : Shape := ⟨2, ![4096, 63]⟩
abbrev S4096x8 : Shape := ⟨2, ![4096, 8]⟩
abbrev S4096x256 : Shape := ⟨2, ![4096, 256]⟩
abbrev S1x256 : Shape := ⟨2, ![1, 256]⟩
abbrev S4096x4 : Shape := ⟨2, ![4096, 4]⟩
abbrev S1x4 : Shape := ⟨2, ![1, 4]⟩
abbrev S4096x1 : Shape := ⟨2, ![4096, 1]⟩
abbrev S4096x3 : Shape := ⟨2, ![4096, 3]⟩
abbrev S4096x64 : Shape := ⟨2, ![4096, 64]⟩
abbrev S1x64 : Shape := ⟨2, ![1, 64]⟩
abbrev S1x3 : Shape := ⟨2, ![1, 3]⟩
abbrev S4096 : Shape := ⟨1, ![4096]⟩
abbrev S262144x1 : Shape := ⟨2, ![262144, 1]⟩
abbrev S262144x3 : Shape := ⟨2, ![262144, 3]⟩

abbrev nBuf : Space → Nat
  | .hbm => 37
  | .vmem => 27
  | .smem => 0
  | _ => 0

abbrev bufTy : (tb : Table) → Fin (tcTables nBuf tb) → BufTy
  | .hbm, ⟨0, _⟩ => ⟨S262144x63, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S319x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x4, .f32⟩
  | .hbm, ⟨16, _⟩ => ⟨S4, .f32⟩
  | .hbm, ⟨17, _⟩ => ⟨S256x64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S64x3, .f32⟩
  | .hbm, ⟨22, _⟩ => ⟨S3, .f32⟩
  | .hbm, ⟨23, _⟩ => ⟨S63x256, .bf16⟩
  | .hbm, ⟨24, _⟩ => ⟨S256x256, .bf16⟩
  | .hbm, ⟨25, _⟩ => ⟨S256x256, .bf16⟩
  | .hbm, ⟨26, _⟩ => ⟨S256x256, .bf16⟩
  | .hbm, ⟨27, _⟩ => ⟨S63x256, .f32⟩
  | .hbm, ⟨28, _⟩ => ⟨S63x256, .bf16⟩
  | .hbm, ⟨29, _⟩ => ⟨S256x256, .f32⟩
  | .hbm, ⟨30, _⟩ => ⟨S256x256, .bf16⟩
  | .hbm, ⟨31, _⟩ => ⟨S256x256, .bf16⟩
  | .hbm, ⟨32, _⟩ => ⟨S256x256, .bf16⟩
  | .hbm, ⟨33, _⟩ => ⟨S262144x8, .f32⟩
  | .hbm, ⟨34, _⟩ => ⟨S262144x1, .f32⟩
  | .hbm, ⟨35, _⟩ => ⟨S262144x3, .f32⟩
  | .hbm, ⟨36, _⟩ => ⟨S262144x3, .f32⟩
  | .local _ .vmem, ⟨0, _⟩ => ⟨S4096x63, .f32⟩
  | .local _ .vmem, ⟨1, _⟩ => ⟨S4096x63, .f32⟩
  | .local _ .vmem, ⟨2, _⟩ => ⟨S63x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S63x256, .bf16⟩
  | .local _ .vmem, ⟨11, _⟩ => ⟨S256x256, .bf16⟩
  | .local _ .vmem, ⟨12, _⟩ => ⟨S256, .f32⟩
  | .local _ .vmem, ⟨13, _⟩ => ⟨S256x256, .bf16⟩
  | .local _ .vmem, ⟨14, _⟩ => ⟨S256, .f32⟩
  | .local _ .vmem, ⟨15, _⟩ => ⟨S256x256, .bf16⟩
  | .local _ .vmem, ⟨16, _⟩ => ⟨S256, .f32⟩
  | .local _ .vmem, ⟨17, _⟩ => ⟨S256x4, .f32⟩
  | .local _ .vmem, ⟨18, _⟩ => ⟨S4, .f32⟩
  | .local _ .vmem, ⟨19, _⟩ => ⟨S256x64, .f32⟩
  | .local _ .vmem, ⟨20, _⟩ => ⟨S64, .f32⟩
  | .local _ .vmem, ⟨21, _⟩ => ⟨S64x64, .f32⟩
  | .local _ .vmem, ⟨22, _⟩ => ⟨S64, .f32⟩
  | .local _ .vmem, ⟨23, _⟩ => ⟨S64x3, .f32⟩
  | .local _ .vmem, ⟨24, _⟩ => ⟨S3, .f32⟩
  | .local _ .vmem, ⟨25, _⟩ => ⟨S4096x8, .f32⟩
  | .local _ .vmem, ⟨26, _⟩ => ⟨S4096x8, .f32⟩
  | _, _ => ⟨S262144x63, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg24_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem24_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x63 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S63x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S63x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x3 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S3 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S4096x8 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  bitsLt_bf16_f32 : FTy.bits .bf16 < FTy.bits .f32
  slices_S319x256_S63x256_0_0 : S319x256.Slices ![0, 0] S63x256
  slices_S319x256_S256x256_63_0 : S319x256.Slices ![63, 0] S256x256
  inb_S4096x63_S4096x63_0_0 : ∀ a, (![0, 0] : Fin 2 → Nat) a + S4096x63.size a ≤ S4096x63.size a
  h_S4096x63 : 0 < S4096x63.numel
  inb_S63x256_S63x256_0_0 : ∀ a, (![0, 0] : Fin 2 → Nat) a + S63x256.size a ≤ S63x256.size a
  h_S63x256 : 0 < S63x256.numel
  shapeCasts_S63x256_S63x256 : S63x256.ShapeCasts S63x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x4_S256x4_0_0 : ∀ a, (![0, 0] : Fin 2 → Nat) a + S256x4.size a ≤ S256x4.size a
  h_S256x4 : 0 < S256x4.numel
  inb_S4_S4_0 : ∀ a, (![0] : Fin 1 → Nat) a + S4.size a ≤ S4.size a
  h_S4 : 0 < S4.numel
  shapeCasts_S4_S1x4 : S4.ShapeCasts S1x4
  broadcasts_S1x4_S4096x4 : S1x4.Broadcasts S4096x4
  slices_S4096x4_o0_0_S4096x1 : S4096x4.Slices ![0, 0] S4096x1
  slices_S4096x4_o0_1_S4096x3 : S4096x4.Slices ![0, 1] S4096x3
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S4096x3 : S1x3.Broadcasts S4096x3
  reduces_S4096x3_S4096 : S4096x3.Reduces [1] S4096
  shapeCasts_S4096_S4096x1 : S4096.ShapeCasts S4096x1
  broadcasts_S4096x1_S4096x3 : S4096x1.Broadcasts S4096x3
  concatenates_S4096x1_S4096x3_S4096x3_S4096x1_S4096x8_d1 : Shape.Concatenates [S4096x1, S4096x3, S4096x3, S4096x1] S4096x8 1
  inb_S4096x8_S4096x8_0_0 : ∀ a, (![0, 0] : Fin 2 → Nat) a + S4096x8.size a ≤ S4096x8.size a
  h_S4096x8 : 0 < S4096x8.numel
  slices_S262144x8_S262144x1_0_0 : S262144x8.Slices ![0, 0] S262144x1
  slices_S262144x8_S262144x3_0_1 : S262144x8.Slices ![0, 1] S262144x3
  slices_S262144x8_S262144x3_0_4 : S262144x8.Slices ![0, 4] S262144x3
  dot_S4096x63_S63x256_S4096x256_1_0_0_1_n_n_wf : DotDims.WF S4096x63 S63x256 S4096x256 [1] [0] [0] [1] [] []
  dot_S4096x256_S256x256_S4096x256_1_0_0_1_n_n_wf : DotDims.WF S4096x256 S256x256 S4096x256 [1] [0] [0] [1] [] []
  dot_S4096x256_S256x4_S4096x4_1_0_0_1_n_n_wf : DotDims.WF S4096x256 S256x4 S4096x4 [1] [0] [0] [1] [] []
  dot_S4096x256_S256x64_S4096x64_1_0_0_1_n_n_wf : DotDims.WF S4096x256 S256x64 S4096x64 [1] [0] [0] [1] [] []
  dot_S4096x64_S64x64_S4096x64_1_0_0_1_n_n_wf : DotDims.WF S4096x64 S64x64 S4096x64 [1] [0] [0] [1] [] []
  dot_S4096x64_S64x3_S4096x3_1_0_0_1_n_n_wf : DotDims.WF S4096x64 S64x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x63.size a ≤ S262144x63.size a
  hwx0_0 : ∀ i : grid0.Coords, EltTy.bits .f32 = 32 ∨ (Rect.block (s := S262144x63) S4096x63.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x256.size a ≤ S63x256.size a
  hwx0_1 : ∀ i : grid0.Coords, EltTy.bits .bf16 = 32 ∨ (Rect.block (s := S63x256) S63x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S63x256.size a ≤ S63x256.size a
  hwx0_9 : ∀ i : grid0.Coords, EltTy.bits .bf16 = 32 ∨ (Rect.block (s := S63x256) S63x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .bf16 = 32 ∨ (Rect.block (s := S256x256) S256x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x4.size a ≤ S256x4.size a
  hwx0_16 : ∀ i : grid0.Coords, EltTy.bits .f32 = 32 ∨ (Rect.block (s := S256x4) S256x4.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S4.size a ≤ S4.size a
  hwx0_17 : ∀ i : grid0.Coords, EltTy.bits .f32 = 32 ∨ (Rect.block (s := S4) S4.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x64.size a ≤ S256x64.size a
  hwx0_18 : ∀ i : grid0.Coords, EltTy.bits .f32 = 32 ∨ (Rect.block (s := S256x64) S256x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64.size a ≤ S64.size a
  hwx0_19 : ∀ i : grid0.Coords, EltTy.bits .f32 = 32 ∨ (Rect.block (s := S64) S64.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S64x64.size a ≤ S64x64.size a
  hwx0_20 : ∀ i : grid0.Coords, EltTy.bits .f32 = 32 ∨ (Rect.block (s := S64x64) S64x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S64.size a ≤ S64.size a
  hwx0_21 : ∀ i : grid0.Coords, EltTy.bits .f32 = 32 ∨ (Rect.block (s := S64) S64.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S64x3.size a ≤ S64x3.size a
  hwx0_22 : ∀ i : grid0.Coords, EltTy.bits .f32 = 32 ∨ (Rect.block (s := S64x3) S64x3.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S3.size a ≤ S3.size a
  hwx0_23 : ∀ i : grid0.Coords, EltTy.bits .f32 = 32 ∨ (Rect.block (s := S3) S3.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S4096x8.size a ≤ S262144x8.size a
  hwx0_24 : ∀ i : grid0.Coords, EltTy.bits .f32 = 32 ∨ (Rect.block (s := S262144x8) S4096x8.size (cc0_transform_24 i) (hinb0_24 i)).WholeWords (EltTy.packing .f32)

variable [Facts₀]

def dot_S4096x63_S63x256_S4096x256_1_0_0_1_n_n : DotDims S4096x63 S63x256 S4096x256 where
  lhsContracting := [1]
  rhsContracting := [0]
  lhsNonContracting := [0]
  rhsNonContracting := [1]
  lhsBatch := []
  rhsBatch := []
  wf := dot_S4096x63_S63x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x4_S4096x4_1_0_0_1_n_n : DotDims S4096x256 S256x4 S4096x4 where
  lhsContracting := [1]
  rhsContracting := [0]
  lhsNonContracting := [0]
  rhsNonContracting := [1]
  lhsBatch := []
  rhsBatch := []
  wf := dot_S4096x256_S256x4_S4096x4_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf

abbrev win0_0 : Pipeline.Window sig grid0 :=
  Pipeline.Window.ofSpec (Memref.whole main_arg0) S4096x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S63x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S63x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S256x4.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S4.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg17) S256x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg18) S64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg19) S64x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg20) S64.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg21) S64x3.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg22) S3.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v10) S4096x8.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S262144x63 : Shape := ⟨2, ![262144, 63]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x4 : Shape := ⟨2, ![256, 4]⟩
abbrev S4 : Shape := ⟨1, ![4]⟩
abbrev S256x64 : Shape := ⟨2, ![256, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S262144x256 : Shape := ⟨2, ![262144, 256]⟩
abbrev S1x256 : Shape := ⟨2, ![1, 256]⟩
abbrev S_ : Shape := ⟨0, ![]⟩
abbrev S262144x319 : Shape := ⟨2, ![262144, 319]⟩
abbrev S262144x4 : Shape := ⟨2, ![262144, 4]⟩
abbrev S1x4 : Shape := ⟨2, ![1, 4]⟩
abbrev S262144x1 : Shape := ⟨2, ![262144, 1]⟩
abbrev S262144x3 : Shape := ⟨2, ![262144, 3]⟩
abbrev S262144x64 : Shape := ⟨2, ![262144, 64]⟩
abbrev S1x64 : Shape := ⟨2, ![1, 64]⟩
abbrev S1x3 : Shape := ⟨2, ![1, 3]⟩
abbrev S262144 : Shape := ⟨1, ![262144]⟩

abbrev nBuf : Space → Nat
  | .hbm => 136
  | .vmem => 0
  | .smem => 0
  | _ => 0

abbrev hbmTy0_0 (i : Nat) : BufTy := match i % 128 with
  | 0 => ⟨S262144x63, .f32⟩
  | 1 => ⟨S63x256, .f32⟩
  | 2 => ⟨S256, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S319x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S256x4, .f32⟩
  | 16 => ⟨S4, .f32⟩
  | 17 => ⟨S256x64, .f32⟩
  | 18 => ⟨S64, .f32⟩
  | 19 => ⟨S64x64, .f32⟩
  | 20 => ⟨S64, .f32⟩
  | 21 => ⟨S64x3, .f32⟩
  | 22 => ⟨S3, .f32⟩
  | 23 => ⟨S262144x256, .f32⟩
  | 24 => ⟨S1x256, .f32⟩
  | 25 => ⟨S262144x256, .f32⟩
  | 26 => ⟨S262144x256, .f32⟩
  | 27 => ⟨S_, .f32⟩
  | 28 => ⟨S262144x256, .f32⟩
  | 29 => ⟨S262144x256, .f32⟩
  | 30 => ⟨S262144x256, .f32⟩
  | 31 => ⟨S1x256, .f32⟩
  | 32 => ⟨S262144x256, .f32⟩
  | 33 => ⟨S262144x256, .f32⟩
  | 34 => ⟨S_, .f32⟩
  | 35 => ⟨S262144x256, .f32⟩
  | 36 => ⟨S262144x256, .f32⟩
  | 37 => ⟨S262144x256, .f32⟩
  | 38 => ⟨S1x256, .f32⟩
  | 39 => ⟨S262144x256, .f32⟩
  | 40 => ⟨S262144x256, .f32⟩
  | 41 => ⟨S_, .f32⟩
  | 42 => ⟨S262144x256, .f32⟩
  | 43 => ⟨S262144x256, .f32⟩
  | 44 => ⟨S262144x256, .f32⟩
  | 45 => ⟨S1x256, .f32⟩
  | 46 => ⟨S262144x256, .f32⟩
  | 47 => ⟨S262144x256, .f32⟩
  | 48 => ⟨S_, .f32⟩
  | 49 => ⟨S262144x256, .f32⟩
  | 50 => ⟨S262144x256, .f32⟩
  | 51 => ⟨S262144x319, .f32⟩
  | 52 => ⟨S262144x256, .f32⟩
  | 53 => ⟨S1x256, .f32⟩
  | 54 => ⟨S262144x256, .f32⟩
  | 55 => ⟨S262144x256, .f32⟩
  | 56 => ⟨S_, .f32⟩
  | 57 => ⟨S262144x256, .f32⟩
  | 58 => ⟨S262144x256, .f32⟩
  | 59 => ⟨S262144x256, .f32⟩
  | 60 => ⟨S1x256, .f32⟩
  | 61 => ⟨S262144x256, .f32⟩
  | 62 => ⟨S262144x256, .f32⟩
  | 63 => ⟨S_, .f32⟩
  | 64 => ⟨S262144x256, .f32⟩
  | 65 => ⟨S262144x256, .f32⟩
  | 66 => ⟨S262144x256, .f32⟩
  | 67 => ⟨S1x256, .f32⟩
  | 68 => ⟨S262144x256, .f32⟩
  | 69 => ⟨S262144x256, .f32⟩
  | 70 => ⟨S_, .f32⟩
  | 71 => ⟨S262144x256, .f32⟩
  | 72 => ⟨S262144x256, .f32⟩
  | 73 => ⟨S262144x4, .f32⟩
  | 74 => ⟨S1x4, .f32⟩
  | 75 => ⟨S262144x4, .f32⟩
  | 76 => ⟨S262144x4, .f32⟩
  | 77 => ⟨S262144x1, .f32⟩
  | 78 => ⟨S262144x3, .f32⟩
  | 79 => ⟨S_, .f32⟩
  | 80 => ⟨S262144x1, .f32⟩
  | 81 => ⟨S262144x1, .f32⟩
  | 82 => ⟨S262144x1, .f32⟩
  | 83 => ⟨S262144x1, .f32⟩
  | 84 => ⟨S262144x1, .i1⟩
  | 85 => ⟨S262144x1, .f32⟩
  | 86 => ⟨S262144x1, .f32⟩
  | 87 => ⟨S262144x1, .f32⟩
  | 88 => ⟨S262144x1, .f32⟩
  | 89 => ⟨S262144x1, .f32⟩
  | 90 => ⟨S262144x1, .f32⟩
  | 91 => ⟨S262144x1, .f32⟩
  | 92 => ⟨S262144x1, .f32⟩
  | 93 => ⟨S262144x3, .f32⟩
  | 94 => ⟨S262144x3, .f32⟩
  | 95 => ⟨S_, .f32⟩
  | 96 => ⟨S262144x3, .f32⟩
  | 97 => ⟨S262144x3, .f32⟩
  | 98 => ⟨S_, .f32⟩
  | 99 => ⟨S262144x3, .f32⟩
  | 100 => ⟨S262144x3, .f32⟩
  | 101 => ⟨S_, .f32⟩
  | 102 => ⟨S262144x3, .f32⟩
  | 103 => ⟨S262144x3, .f32⟩
  | 104 => ⟨S_, .f32⟩
  | 105 => ⟨S262144x3, .f32⟩
  | 106 => ⟨S262144x3, .f32⟩
  | 107 => ⟨S262144x64, .f32⟩
  | 108 => ⟨S1x64, .f32⟩
  | 109 => ⟨S262144x64, .f32⟩
  | 110 => ⟨S262144x64, .f32⟩
  | 111 => ⟨S_, .f32⟩
  | 112 => ⟨S262144x64, .f32⟩
  | 113 => ⟨S262144x64, .f32⟩
  | 114 => ⟨S262144x64, .f32⟩
  | 115 => ⟨S1x64, .f32⟩
  | 116 => ⟨S262144x64, .f32⟩
  | 117 => ⟨S262144x64, .f32⟩
  | 118 => ⟨S_, .f32⟩
  | 119 => ⟨S262144x64, .f32⟩
  | 120 => ⟨S262144x64, .f32⟩
  | 121 => ⟨S262144x3, .f32⟩
  | 122 => ⟨S1x3, .f32⟩
  | 123 => ⟨S262144x3, .f32⟩
  | 124 => ⟨S262144x3, .f32⟩
  | 125 => ⟨S262144x3, .f32⟩
  | 126 => ⟨S262144x3, .f32⟩
  | 127 => ⟨S_, .f32⟩
  | _ => ⟨S262144x63, .f32⟩

abbrev hbmTy0_1 (i : Nat) : BufTy := match i % 128 with
  | 0 => ⟨S262144, .f32⟩
  | 1 => ⟨S262144x1, .f32⟩
  | 2 => ⟨S262144x1, .f32⟩
  | 3 => ⟨S_, .f32⟩
  | 4 => ⟨S262144x1, .f32⟩
  | 5 => ⟨S262144x1, .f32⟩
  | 6 => ⟨S262144x3, .f32⟩
  | 7 => ⟨S262144x3, .f32⟩
  | _ => ⟨S262144x63, .f32⟩

abbrev hbmTy (i : Nat) : BufTy := match i / 128 with
  | 0 => hbmTy0_0 i
  | 1 => hbmTy0_1 i
  | _ => ⟨S262144x63, .f32⟩

abbrev bufTy : (tb : Table) → Fin (tcTables nBuf tb) → BufTy
  | .hbm, ⟨i, _⟩ => hbmTy i
  | _, _ => ⟨S262144x63, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_cst : Ref sig .tc := ⟨.hbm, 27, rfl⟩
abbrev main_call0_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_cst : Ref sig .tc := ⟨.hbm, 34, rfl⟩
abbrev main_call1_v0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_call2_cst : Ref sig .tc := ⟨.hbm, 41, rfl⟩
abbrev main_call2_v0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call3_cst : Ref sig .tc := ⟨.hbm, 48, rfl⟩
abbrev main_call3_v0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_call4_cst : Ref sig .tc := ⟨.hbm, 56, rfl⟩
abbrev main_call4_v0 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_call5_cst : Ref sig .tc := ⟨.hbm, 63, rfl⟩
abbrev main_call5_v0 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_call6_cst : Ref sig .tc := ⟨.hbm, 70, rfl⟩
abbrev main_call6_v0 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_call7_cst : Ref sig .tc := ⟨.hbm, 79, rfl⟩
abbrev main_call7_v0 : Ref sig .tc := ⟨.hbm, 80, rfl⟩
abbrev main_call7_v1 : Ref sig .tc := ⟨.hbm, 81, rfl⟩
abbrev main_call7_v2 : Ref sig .tc := ⟨.hbm, 82, rfl⟩
abbrev main_call7_v3 : Ref sig .tc := ⟨.hbm, 83, rfl⟩
abbrev main_call7_v4 : Ref sig .tc := ⟨.hbm, 84, rfl⟩
abbrev main_call7_v5 : Ref sig .tc := ⟨.hbm, 85, rfl⟩
abbrev main_call7_v6 : Ref sig .tc := ⟨.hbm, 86, rfl⟩
abbrev main_call7_v7 : Ref sig .tc := ⟨.hbm, 87, rfl⟩
abbrev main_call7_v8 : Ref sig .tc := ⟨.hbm, 88, rfl⟩
abbrev main_call7_v9 : Ref sig .tc := ⟨.hbm, 89, rfl⟩
abbrev main_call7_v10 : Ref sig .tc := ⟨.hbm, 90, rfl⟩
abbrev main_call7_v11 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst : Ref sig .tc := ⟨.hbm, 95, rfl⟩
abbrev main_v45 : Ref sig .tc := ⟨.hbm, 96, rfl⟩
abbrev main_v46 : Ref sig .tc := ⟨.hbm, 97, rfl⟩
abbrev main_cst_0 : Ref sig .tc := ⟨.hbm, 98, rfl⟩
abbrev main_v47 : Ref sig .tc := ⟨.hbm, 99, rfl⟩
abbrev main_v48 : Ref sig .tc := ⟨.hbm, 100, rfl⟩
abbrev main_cst_1 : Ref sig .tc := ⟨.hbm, 101, rfl⟩
abbrev main_v49 : Ref sig .tc := ⟨.hbm, 102, rfl⟩
abbrev main_v50 : Ref sig .tc := ⟨.hbm, 103, rfl⟩
abbrev main_cst_2 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_call8_cst : Ref sig .tc := ⟨.hbm, 111, rfl⟩
abbrev main_call8_v0 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_call9_cst : Ref sig .tc := ⟨.hbm, 118, rfl⟩
abbrev main_call9_v0 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_call10_v0 : Ref sig .tc := ⟨.hbm, 126, rfl⟩
abbrev main_call10_cst : Ref sig .tc := ⟨.hbm, 127, rfl⟩
abbrev main_call10_v1 : Ref sig .tc := ⟨.hbm, 128, rfl⟩
abbrev main_call10_v2 : Ref sig .tc := ⟨.hbm, 129, rfl⟩
abbrev main_v68 : Ref sig .tc := ⟨.hbm, 130, rfl⟩
abbrev main_cst_3 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  concatenates_S262144x63_S262144x256_S262144x319_d1 : Shape.Concatenates [S262144x63, S262144x256] S262144x319 1
  bcast_S4_S1x4_1 : S4.BroadcastsInDim S1x4 (![1] : Fin 1 → Fin S1x4.rank)
  bcast_S1x4_S262144x4_0_1 : S1x4.BroadcastsInDim S262144x4 (![0, 1] : Fin 2 → Fin S262144x4.rank)
  slices_S262144x4_S262144x1_0_0 : S262144x4.Slices ![0, 0] S262144x1
  slices_S262144x4_S262144x3_0_1 : S262144x4.Slices ![0, 1] S262144x3
  bcast_S_S262144x1 : S_.BroadcastsInDim S262144x1 (![] : Fin 0 → Fin S262144x1.rank)
  bcast_S_S262144x3 : S_.BroadcastsInDim S262144x3 (![] : Fin 0 → Fin S262144x3.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  reducesTo_S262144x3_S262144_d1 : S262144x3.ReducesTo [1] S262144
  h_S_ : 0 < S_.numel
  bcast_S262144_S262144x1_0 : S262144.BroadcastsInDim S262144x1 (![0] : Fin 1 → Fin S262144x1.rank)
  bcast_S262144x1_S262144x3_0_1 : S262144x1.BroadcastsInDim S262144x3 (![0, 1] : Fin 2 → Fin S262144x3.rank)
  dot_S262144x63_S63x256_S262144x256_1_0_0_1_n_n_wf : DotDims.WF S262144x63 S63x256 S262144x256 [1] [0] [0] [1] [] []
  dot_S262144x256_S256x256_S262144x256_1_0_0_1_n_n_wf : DotDims.WF S262144x256 S256x256 S262144x256 [1] [0] [0] [1] [] []
  dot_S262144x319_S319x256_S262144x256_1_0_0_1_n_n_wf : DotDims.WF S262144x319 S319x256 S262144x256 [1] [0] [0] [1] [] []
  dot_S262144x256_S256x4_S262144x4_1_0_0_1_n_n_wf : DotDims.WF S262144x256 S256x4 S262144x4 [1] [0] [0] [1] [] []
  dot_S262144x256_S256x64_S262144x64_1_0_0_1_n_n_wf : DotDims.WF S262144x256 S256x64 S262144x64 [1] [0] [0] [1] [] []
  dot_S262144x64_S64x64_S262144x64_1_0_0_1_n_n_wf : DotDims.WF S262144x64 S64x64 S262144x64 [1] [0] [0] [1] [] []
  dot_S262144x64_S64x3_S262144x3_1_0_0_1_n_n_wf : DotDims.WF S262144x64 S64x3 S262144x3 [1] [0] [0] [1] [] []

variable [Facts₀]

def dot_S262144x63_S63x256_S262144x256_1_0_0_1_n_n : DotDims S262144x63 S63x256 S262144x256 where
  lhsContracting := [1]
  rhsContracting := [0]
  lhsNonContracting := [0]
  rhsNonContracting := [1]
  lhsBatch := []
  rhsBatch := []
  wf := dot_S262144x63_S63x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x319_S319x256_S262144x256_1_0_0_1_n_n : DotDims S262144x319 S319x256 S262144x256 where
  lhsContracting := [1]
  rhsContracting := [0]
  lhsNonContracting := [0]
  rhsNonContracting := [1]
  lhsBatch := []
  rhsBatch := []
  wf := dot_S262144x319_S319x256_S262144x256_1_0_0_1_n_n_wf
def dot_S262144x256_S256x4_S262144x4_1_0_0_1_n_n : DotDims S262144x256 S256x4 S262144x4 where
  lhsContracting := [1]
  rhsContracting := [0]
  lhsNonContracting := [0]
  rhsNonContracting := [1]
  lhsBatch := []
  rhsBatch := []
  wf := dot_S262144x256_S256x4_S262144x4_1_0_0_1_n_n_wf
def dot_S262144x256_S256x64_S262144x64_1_0_0_1_n_n : DotDims S262144x256 S256x64 S262144x64 where
  lhsContracting := [1]
  rhsContracting := [0]
  lhsNonContracting := [0]
  rhsNonContracting := [1]
  lhsBatch := []
  rhsBatch := []
  wf := dot_S262144x256_S256x64_S262144x64_1_0_0_1_n_n_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def dot_S262144x64_S64x3_S262144x3_1_0_0_1_n_n : DotDims S262144x64 S64x3 S262144x3 where
  lhsContracting := [1]
  rhsContracting := [0]
  lhsNonContracting := [0]
  rhsNonContracting := [1]
  lhsBatch := []
  rhsBatch := []
  wf := dot_S262144x64_S64x3_S262144x3_1_0_0_1_n_n_wf

class Facts : Prop extends Facts₀ where

variable [Facts]
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibRowLayers.lean ====
/-
  Row-wise network layers read as whole arrays, at the ideal values.

  A network applied to each row of a matrix is built from a few layers. Each is stated here once, as a function of whole
  arrays over arbitrary extents:

    sumLead     the sum over the leading axis of a [c, n, d] array:  (p, j) ↦ ∑ k, x (k, p, j)
    dense       an affine map of each row, the weight stored [out, in]:  (p, j) ↦ (∑ d, X (p, d) * W (j, d)) + b j
    relu        the maximum with the value of the zero word, entry by entry
    scale       the product with the value of a float word, entry by entry
    sideBySide  an [n, a] and an [n, b] array joined along the columns

  Two spellings of each layer are proved equal to it. On the vector unit an affine map is a product with the transposed
  weight into a zero accumulator plus the bias cast to a [1, N] row and broadcast down the rows; on the host it is a
  dot_general with the transposed weight plus the bias broadcast in two steps. A sum over the leading axis is a
  multi_reduction from the neutral accumulator; a relu is a maximum with a zero splat. None of these equalities moves a
  factor across a sum, so they hold for every extended real, infinite entries included.

  Every layer computes row p of its result from row p of its array operands alone (the weights and biases are shared by
  all rows). So each layer commutes with taking a family of rows, 'rows e' below: a network of such layers applied to a
  block of rows is the same block of rows of the network applied to the whole matrix.
-/
import Idealize.ShloMosaic.PureOps.Ideal.Laws
import Idealize.ShloMosaic.Lib.ValueIdx
import Idealize.ShloMosaic.Lib.ValueLayout
import Idealize.ShloMosaic.Lib.Pipeline.Value
import proofs.«110630_j78632261256031_2_alg».proof.Proof.LibPlainDot

noncomputable section

namespace Cert.Lib.RowLayers

open Idealize.ShloMosaic Idealize.ShloMosaic.ValueIdx

/-! ## The layers -/

/-- The sum over the leading axis of a [c, n, d] array. -/
def sumLead (c n d : ℕ) (x : (⟨3, ![c, n, d]⟩ : Shape).Idx → EReal) : (⟨2, ![n, d]⟩ : Shape).Idx → EReal :=
  fun i => ∑ k : Fin c, x (ix3 k (i 0) (i 1))

/-- An affine map of each row: the weight is stored [out, in], so entry (p, j) pairs row p of X with row j of W. -/
def dense (n K N : ℕ) (X : (⟨2, ![n, K]⟩ : Shape).Idx → EReal) (W : (⟨2, ![N, K]⟩ : Shape).Idx → EReal)
    (b : (⟨1, ![N]⟩ : Shape).Idx → EReal) : (⟨2, ![n, N]⟩ : Shape).Idx → EReal :=
  fun i => (∑ d : Fin K, X (ix2 (i 0) d) * W (ix2 (i 1) d)) + b (ix1 (i 1))

/-- The maximum with the value of the zero word, entry by entry. -/
def relu (s : Shape) (X : s.Idx → EReal) : s.Idx → EReal :=
  fun i => max (X i) (Ideal.ofBits .f32 0x00000000#32)

/-- The product with the value of the float word w, entry by entry (the word on the left). -/
def scale (s : Shape) (w : BitVec 32) (b : s.Idx → EReal) : s.Idx → EReal :=
  fun i => Ideal.ofBits .f32 w * b i

/-- An [n, a] array and an [n, b] array joined along the columns: column q < a is the first array's, column q ≥ a the
    second array's column q - a. -/
def sideBySide (n a b c : ℕ) (hc : c = a + b) (X : (⟨2, ![n, a]⟩ : Shape).Idx → EReal)
    (Y : (⟨2, ![n, b]⟩ : Shape).Idx → EReal) : (⟨2, ![n, c]⟩ : Shape).Idx → EReal :=
  fun i => if h : (i 1).val < a then X (ix2 (i 0) ⟨(i 1).val, h⟩)
    else Y (ix2 (i 0) ⟨(i 1).val - a, by have := idx2_lt1 i; omega⟩)

/-! ## A change of float format is the identity at the ideal values -/

theorem truncf_id {s : Shape} {φ ψ : FTy} (X : FVec Ideal s φ) (h : ψ.bits < φ.bits) :
    (truncf ψ X h : FVec Ideal s ψ) = X := rfl

/-! ## A plain product at a pair of coordinates -/

theorem matmul_zero_ix2 (M K N : ℕ) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  Cert.Lib.PlainDot.matmul_zero_apply M K N prec l r (ix2 p q)

theorem dotGeneral_ix2 (M K N : ℕ) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  Cert.Lib.PlainDot.dotGeneral_apply M K N prec sched l r (ix2 p q)

/-! ## The vector unit's spellings -/

/-- A multi_reduction by addition over the leading axis, from the neutral accumulator, is the sum over that axis. -/
theorem kernel_sumLead (c n d : ℕ) (x : FVec Ideal ⟨3, ![c, n, d]⟩ .f32)
    (h : (⟨3, ![c, n, d]⟩ : Shape).Reduces [0] ⟨2, ![n, d]⟩)
    (hacc : (0x00000000#32 : BitVec 32) = 0x00000000#32) :
    multiReduction .add [0] ⟨2, ![n, d]⟩ x 0x00000000#32 h (.inl rfl) hacc = sumLead c n d x := by
  funext i
  obtain ⟨p, q, rfl⟩ : ∃ (p : Fin n) (q : Fin d), i = ix2 p q := ⟨i 0, i 1, eq_ix2 i⟩
  refine (Ideal.multiReduction_add_single x 0x00000000#32 h (.inl rfl) hacc (ix2 p q)).trans ?_
  refine Finset.sum_congr rfl fun k _ => congrArg x (funext fun a => Fin.ext ?_)
  match a with
  | ⟨0, _⟩ => rfl
  | ⟨1, _⟩ => rfl
  | ⟨2, _⟩ => rfl

/-- The product with the transposed weight into a zero accumulator, plus the bias as a [1, N] row broadcast down the
    rows, is the affine map. -/
theorem kernel_dense (n K N : ℕ) {φ₁ φ₂ : FTy} (X : FVec Ideal ⟨2, ![n, K]⟩ φ₁) (W : FVec Ideal ⟨2, ![N, K]⟩ φ₂)
    (b : FVec Ideal ⟨1, ![N]⟩ .f32)
    (hT : (⟨2, ![N, K]⟩ : Shape).Transposes [1, 0] ⟨2, ![K, N]⟩)
    (hS : (⟨1, ![N]⟩ : Shape).ShapeCasts ⟨2, ![1, N]⟩) (hB : (⟨2, ![1, N]⟩ : Shape).Broadcasts ⟨2, ![n, N]⟩) :
    addf (matmul (DotDims.plain n K N) none X (transpose ⟨2, ![K, N]⟩ [1, 0] W hT) (constant ⟨2, ![n, N]⟩ .f32 0x00000000#32))
        (broadcastTo ⟨2, ![n, N]⟩ (shapeCast ⟨2, ![1, N]⟩ b hS) hB)
      = dense n K N X W b := by
  funext i
  obtain ⟨p, q, rfl⟩ : ∃ (p : Fin n) (q : Fin N), i = ix2 p q := ⟨i 0, i 1, eq_ix2 i⟩
  show FloatOps.matmul (DotDims.plain n K N) none X (transpose ⟨2, ![K, N]⟩ [1, 0] W hT) (constant ⟨2, ![n, N]⟩ .f32 0x00000000#32) (ix2 p q)
      + broadcastTo ⟨2, ![n, N]⟩ (shapeCast ⟨2, ![1, N]⟩ b hS) hB (ix2 p q)
    = (∑ d : Fin K, X (ix2 p d) * W (ix2 q d)) + b (ix1 q)
  rw [matmul_zero_ix2, broadcastTo_1b_ab_apply, shapeCast_a_1a_apply]
  refine congrArg (· + b (ix1 q)) (Finset.sum_congr rfl fun k _ => ?_)
  rw [transpose_ix2_apply]

/-- A maximum with the zero word splat is the relu. -/
theorem kernel_relu (s : Shape) (X : FVec Ideal s .f32) :
    maximumf X (broadcast s (Scalar.ofBits .f32 0x00000000#32)) = relu s X := rfl

/-- A product with a splat word on the left is the scaling. -/
theorem kernel_scale (s : Shape) (w : BitVec 32) (b : FVec Ideal s .f32) :
    mulf (broadcast s (Scalar.ofBits (F := Ideal) .f32 w)) b = scale s w b := rfl

/-- A concatenation of two arrays along axis 1 (either program spells it this way) is the join along the columns. -/
theorem concat_cols (n a b c : ℕ) (hc : c = a + b) (X : (⟨2, ![n, a]⟩ : Shape).Idx → EReal)
    (Y : (⟨2, ![n, b]⟩ : Shape).Idx → EReal)
    (h : Shape.Concatenates [(⟨2, ![n, a]⟩ : Shape), ⟨2, ![n, b]⟩] ⟨2, ![n, c]⟩ 1) :
    concatenate ⟨2, ![n, c]⟩ 1 [⟨⟨2, ![n, a]⟩, X⟩, ⟨⟨2, ![n, b]⟩, Y⟩] h = sideBySide n a b c hc X Y := by
  funext i
  obtain ⟨p, q, rfl⟩ : ∃ (p : Fin n) (q : Fin c), i = ix2 p q := ⟨i 0, i 1, eq_ix2 i⟩
  unfold sideBySide
  split
  · next hq =>
    exact concatenate_pair_apply_left 1 X Y h (ix2 p q) rfl (ix2 p ⟨q.val, hq⟩)
      (fun e => match e with | ⟨0, _⟩ => rfl | ⟨1, _⟩ => rfl)
  · next hq =>
    have hq' : a ≤ q.val := Nat.le_of_not_lt hq
    refine concatenate_pair_apply_right 1 X Y h (ix2 p q) rfl rfl (ix2 p ⟨q.val - a, by have := q.isLt; omega⟩)
      (fun e he => match e, he with
        | ⟨0, _⟩, _ => rfl
        | ⟨1, _⟩, he => absurd rfl he) ?_
    show (q.val - a) + a = q.val
    omega

/-! ## The host's spellings -/

/-- A scalar constant broadcast to a shape reads the word's value at every index. -/
theorem host_splat (t : Shape) (w : BitVec 32) (h : (⟨0, ![]⟩ : Shape).BroadcastsInDim t ![]) (i : t.Idx) :
    broadcastInDim t ![] h (constant (F := Ideal) ⟨0, ![]⟩ .f32 w) i = Ideal.ofBits .f32 w :=
  (broadcastInDim_apply _ h (constant (F := Ideal) ⟨0, ![]⟩ .f32 w) i ix0 (fun a => a.elim0)).trans rfl

/-- A maximum with the broadcast zero constant is the relu. -/
theorem host_relu (t : Shape) (X : FVec Ideal t .f32) (h : (⟨0, ![]⟩ : Shape).BroadcastsInDim t ![]) :
    maximumf X (broadcastInDim t ![] h (constant (F := Ideal) ⟨0, ![]⟩ .f32 0x00000000#32)) = relu t X :=
  funext fun i => congrArg (max (X i)) (host_splat t _ h i)

/-- A product with a broadcast constant on the left is the scaling. -/
theorem host_scale (t : Shape) (w : BitVec 32) (b : FVec Ideal t .f32) (h : (⟨0, ![]⟩ : Shape).BroadcastsInDim t ![]) :
    mulf (broadcastInDim t ![] h (constant (F := Ideal) ⟨0, ![]⟩ .f32 w)) b = scale t w b :=
  funext fun i => congrArg (· * b i) (host_splat t w h i)

/-- A bias broadcast first to a [1, N] row and then down the rows reads the bias at the column. -/
theorem host_bias (n N : ℕ) (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![n, N]⟩ ![0, 1]) (p : Fin n) (q : Fin N) :
    broadcastInDim ⟨2, ![n, N]⟩ ![0, 1] h2 (broadcastInDim ⟨2, ![1, N]⟩ ![1] h1 b) (ix2 p q) = b (ix1 q) := by
  refine (broadcastInDim_apply _ h2 _ (ix2 p q) (ix2 (0 : Fin 1) q) (fun a => ?_)).trans ?_
  · match a with
    | ⟨0, _⟩ => show 0 = if (1 : ℕ) = 1 then 0 else p.val; rw [if_pos rfl]
    | ⟨1, _⟩ =>
      show q.val = if N = 1 then 0 else q.val
      split
      · have := q.isLt; omega
      · rfl
  · refine broadcastInDim_apply _ h1 b (ix2 (0 : Fin 1) q) (ix1 q) (fun a => ?_)
    match a with
    | ⟨0, _⟩ =>
      show q.val = if N = 1 then 0 else q.val
      split
      · have := q.isLt; omega
      · rfl

/-- A dot_general with the transposed weight plus the bias broadcast in two steps is the affine map. -/
theorem host_dense (n K N : ℕ) (X : FVec Ideal ⟨2, ![n, K]⟩ .f32) (W : FVec Ideal ⟨2, ![N, K]⟩ .f32)
    (b : FVec Ideal ⟨1, ![N]⟩ .f32)
    (hT : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![n, N]⟩ ![0, 1]) :
    addf (Host.dotGeneral (DotDims.plain n K N) none X (transpose ⟨2, ![K, N]⟩ [1, 0] W hT))
        (broadcastInDim ⟨2, ![n, N]⟩ ![0, 1] h2 (broadcastInDim ⟨2, ![1, N]⟩ ![1] h1 b))
      = dense n K N X W b := by
  funext i
  obtain ⟨p, q, rfl⟩ : ∃ (p : Fin n) (q : Fin N), i = ix2 p q := ⟨i 0, i 1, eq_ix2 i⟩
  show FloatOps.dotGeneral (DotDims.plain n K N) none .single X (transpose ⟨2, ![K, N]⟩ [1, 0] W hT) (ix2 p q)
      + broadcastInDim ⟨2, ![n, N]⟩ ![0, 1] h2 (broadcastInDim ⟨2, ![1, N]⟩ ![1] h1 b) (ix2 p q)
    = (∑ d : Fin K, X (ix2 p d) * W (ix2 q d)) + b (ix1 q)
  rw [dotGeneral_ix2, host_bias]
  refine congrArg (· + b (ix1 q)) (Finset.sum_congr rfl fun k _ => ?_)
  rw [transpose_ix2_apply]

/-! ## Taking a family of rows -/

/-- The rows e 0, e 1, … of a matrix, as a matrix. -/
def rows (n' n d : ℕ) (e : Fin n' → Fin n) (X : (⟨2, ![n, d]⟩ : Shape).Idx → EReal) : (⟨2, ![n', d]⟩ : Shape).Idx → EReal :=
  fun y => X (ix2 (e (y 0)) (y 1))

/-- The same rows of each slice of a [c, n, d] array. -/
def rows3 (c n' n d : ℕ) (e : Fin n' → Fin n) (X : (⟨3, ![c, n, d]⟩ : Shape).Idx → EReal) :
    (⟨3, ![c, n', d]⟩ : Shape).Idx → EReal :=
  fun y => X (ix3 (y 0) (e (y 1)) (y 2))

variable (n' n : ℕ) (e : Fin n' → Fin n)

theorem sumLead_rows (c d : ℕ) (x : (⟨3, ![c, n, d]⟩ : Shape).Idx → EReal) :
    sumLead c n' d (rows3 c n' n d e x) = rows n' n d e (sumLead c n d x) := rfl

theorem dense_rows (K N : ℕ) (X : (⟨2, ![n, K]⟩ : Shape).Idx → EReal) (W : (⟨2, ![N, K]⟩ : Shape).Idx → EReal)
    (b : (⟨1, ![N]⟩ : Shape).Idx → EReal) :
    dense n' K N (rows n' n K e X) W b = rows n' n N e (dense n K N X W b) := rfl

theorem relu_rows (d : ℕ) (X : (⟨2, ![n, d]⟩ : Shape).Idx → EReal) :
    relu ⟨2, ![n', d]⟩ (rows n' n d e X) = rows n' n d e (relu ⟨2, ![n, d]⟩ X) := rfl

theorem sideBySide_rows (a b c : ℕ) (hc : c = a + b) (X : (⟨2, ![n, a]⟩ : Shape).Idx → EReal)
    (Y : (⟨2, ![n, b]⟩ : Shape).Idx → EReal) :
    sideBySide n' a b c hc (rows n' n a e X) (rows n' n b e Y) = rows n' n c e (sideBySide n a b c hc X Y) := rfl

end Cert.Lib.RowLayers

end
-- ==== Proof.LibMlpLayers.lean ====
/-
  The layers of a perceptron applied to each row of a matrix, as whole arrays over an arbitrary number of rows and at
  the ideal values (extended reals, every operation exact):

    affine      an affine map of each row, the weight stored [in, out]:  (p, j) ↦ (∑ k, X (p, k) * W (k, j)) + b j
    affine2     the same with the row given in two parts, each against its own weight
    cols        w consecutive columns of a matrix from column o
    softplus    max x 0 + log (1 + exp (-|x - 0|)), entry by entry
    colour      1 / (1 + exp (-x)) times the float 1.002 minus the float 0.001, entry by entry
    tanhA       tanh, entry by entry
    normalize   each row of an [n, 3] matrix divided by the larger of its Euclidean norm and the float 1e-12
    packed      a column, two blocks of three columns and a zero column side by side, in eight columns

  Every layer computes row p of its result from row p of its array operands (weights and biases are shared by all
  rows), so each commutes with taking a family of rows ('rows e' of LibRowLayers).
-/
import Idealize.ShloMosaic.PureOps.Ideal.Laws
import Idealize.ShloMosaic.Lib.ValueIdx
import Idealize.ShloMosaic.Lib.ValueLayout
import Idealize.ShloMosaic.Lib.Pipeline.Value
import proofs.«110630_j78632261256031_2_alg».proof.Proof.LibRowLayers

noncomputable section

namespace Cert.RowNet

open Idealize.ShloMosaic Idealize.ShloMosaic.ValueIdx Cert.Lib.RowLayers

/-- An [n, d] matrix of extended reals. -/
abbrev Mat (n d : ℕ) : Type := (⟨2, ![n, d]⟩ : Shape).Idx → EReal
/-- A [d] vector of extended reals. -/
abbrev Vec1 (d : ℕ) : Type := (⟨1, ![d]⟩ : Shape).Idx → EReal

/-! ## The layers -/

/-- An affine map of each row, the weight stored [in, out]: entry (p, j) is row p of X times column j of W, plus b j. -/
def affine (n K N : ℕ) (X : Mat n K) (W : Mat K N) (b : Vec1 N) : Mat n N :=
  fun i => (∑ k : Fin K, X (ix2 (i 0) k) * W (ix2 k (i 1))) + b (ix1 (i 1))

/-- The same with the row given in two parts, each against its own weight. -/
def affine2 (n a b N : ℕ) (X : Mat n a) (H : Mat n b) (Wa : Mat a N) (Wb : Mat b N) (bias : Vec1 N) : Mat n N :=
  fun i => ((∑ k : Fin a, X (ix2 (i 0) k) * Wa (ix2 k (i 1))) + (∑ k : Fin b, H (ix2 (i 0) k) * Wb (ix2 k (i 1))))
    + bias (ix1 (i 1))

/-- 'w' consecutive columns of a matrix from column 'o'. -/
def cols (n d o w : ℕ) (h : o + w ≤ d) (X : Mat n d) : Mat n w :=
  fun i => X (ix2 (i 0) ⟨o + (i 1).val, by have := (i 1).isLt; have : (i 1).val < w := this; omega⟩)

/-- max x 0 + log (1 + exp (-|x - 0|)), entry by entry; the zero is the value of the zero word. -/
def softplus (s : Shape) (x : s.Idx → EReal) : s.Idx → EReal :=
  fun i => max (x i) (Ideal.ofBits .f32 0x00000000#32)
    + Ideal.log1p (Ideal.exp (-(FloatOps.absf (F := Ideal) (φ := .f32) (x i - Ideal.ofBits .f32 0x00000000#32))))

/-- 1 / (1 + exp (-x)) times the float 1.002 minus the float 0.001, entry by entry. -/
def colour (s : Shape) (x : s.Idx → EReal) : s.Idx → EReal :=
  fun i => Ideal.logistic (x i) * Ideal.ofBits .f32 0x3F804189#32 - Ideal.ofBits .f32 0x3A83126F#32

/-- tanh, entry by entry. -/
def tanhA (s : Shape) (x : s.Idx → EReal) : s.Idx → EReal := fun i => Ideal.tanh (x i)

/-- Each row of an [n, 3] matrix divided by the larger of its Euclidean norm and the float 1e-12. -/
def normalize (n : ℕ) (T : Mat n 3) : Mat n 3 :=
  fun i => Ideal.div (T i)
    (max (Ideal.sqrt (T (ix2 (i 0) 0) * T (ix2 (i 0) 0) + T (ix2 (i 0) 1) * T (ix2 (i 0) 1) + T (ix2 (i 0) 2) * T (ix2 (i 0) 2)))
      (Ideal.ofBits .f32 0x2B8CBCCC#32))

/-- Entry (p, q) of a column, two blocks of three columns and a zero column side by side: by the column q. -/
def packedAt (n : ℕ) (D : Mat n 1) (R : Mat n 3) (P : Mat n 3) (p : Fin n) (q : Fin 8) : EReal :=
  if q.val < 1 then D (ix2 p 0)
    else if h1 : q.val < 4 then R (ix2 p ⟨q.val - 1, by omega⟩)
    else if h2 : q.val < 7 then P (ix2 p ⟨q.val - 4, by omega⟩)
    else Ideal.ofBits .f32 0x00000000#32

/-- A column, two blocks of three columns and a zero column side by side. -/
def packed (n : ℕ) (D : Mat n 1) (R : Mat n 3) (P : Mat n 3) : Mat n 8 :=
  fun i => packedAt n D R P (i 0) (i 1)

/-! ## Taking a family of rows -/

variable (n' n : ℕ) (e : Fin n' → Fin n)

theorem affine_rows (K N : ℕ) (X : Mat n K) (W : Mat K N) (b : Vec1 N) :
    affine n' K N (rows n' n K e X) W b = rows n' n N e (affine n K N X W b) := rfl

theorem cols_rows (d o w : ℕ) (h : o + w ≤ d) (X : Mat n d) :
    cols n' d o w h (rows n' n d e X) = rows n' n w e (cols n d o w h X) := rfl

theorem softplus_rows (d : ℕ) (X : Mat n d) :
    softplus ⟨2, ![n', d]⟩ (rows n' n d e X) = rows n' n d e (softplus ⟨2, ![n, d]⟩ X) := rfl

theorem colour_rows (d : ℕ) (X : Mat n d) :
    colour ⟨2, ![n', d]⟩ (rows n' n d e X) = rows n' n d e (colour ⟨2, ![n, d]⟩ X) := rfl

theorem tanhA_rows (d : ℕ) (X : Mat n d) :
    tanhA ⟨2, ![n', d]⟩ (rows n' n d e X) = rows n' n d e (tanhA ⟨2, ![n, d]⟩ X) := rfl

theorem normalize_rows (T : Mat n 3) : normalize n' (rows n' n 3 e T) = rows n' n 3 e (normalize n T) := rfl

theorem packed_rows (D : Mat n 1) (R : Mat n 3) (P : Mat n 3) :
    packed n' (rows n' n 1 e D) (rows n' n 3 e R) (rows n' n 3 e P) = rows n' n 8 e (packed n D R P) := rfl

end Cert.RowNet

end
-- ==== Proof.RowNet.lean ====
/-
  A multilayer perceptron applied to each row of a matrix, as whole arrays over an arbitrary number of rows and at the
  ideal values (extended reals, every operation exact).

  The network: seven hidden layers of width 256, each an affine map of the row followed by the maximum with zero; the
  fifth layer reads the input row (63 entries) joined with the fourth layer's output (256 entries), its weight having
  319 rows. From the last hidden layer 'geo' three heads are computed:
    density   softplus of column 0 of geo * W7 + b7, softplus x = max x 0 + log (1 + exp (-|x|));
    colour    of columns 1..3 of the same product: 1 / (1 + exp (-x)) times the float 1.002 minus the float 0.001;
    normal    two more hidden layers of width 64, an affine map to 3 entries, tanh of them, and the result divided by
              the larger of its Euclidean norm and the float 1e-12.
  'packed' puts the three heads and a zero column side by side in eight columns.

  Every layer computes row p of its result from row p of its array operands (weights and biases are shared by all
  rows), so each commutes with taking a family of rows: the network of a block of rows is that block of rows of the
  network of the whole matrix.
-/
import proofs.«110630_j78632261256031_2_alg».proof.Proof.LibMlpLayers

noncomputable section

namespace Cert.RowNet

open Idealize.ShloMosaic Idealize.ShloMosaic.ValueIdx Cert.Lib.RowLayers

/-! ## The network -/

/-- The weights and biases of the trunk. -/
structure Trunk where
  W0 : Mat 63 256
  b0 : Vec1 256
  W1 : Mat 256 256
  b1 : Vec1 256
  W2 : Mat 256 256
  b2 : Vec1 256
  W3 : Mat 256 256
  b3 : Vec1 256
  W4 : Mat 319 256
  b4 : Vec1 256
  W5 : Mat 256 256
  b5 : Vec1 256
  W6 : Mat 256 256
  b6 : Vec1 256

/-- The output of the fourth hidden layer. -/
def h3 (n : ℕ) (θ : Trunk) (x : Mat n 63) : Mat n 256 :=
  relu _ (affine n 256 256 (relu _ (affine n 256 256 (relu _ (affine n 256 256 (relu _ (affine n 63 256 x θ.W0 θ.b0))
    θ.W1 θ.b1)) θ.W2 θ.b2)) θ.W3 θ.b3)

/-- The output of the last hidden layer. -/
def geo (n : ℕ) (θ : Trunk) (x : Mat n 63) : Mat n 256 :=
  relu _ (affine n 256 256 (relu _ (affine n 256 256 (relu _ (affine n 319 256 (sideBySide n 63 256 319 rfl x (h3 n θ x))
    θ.W4 θ.b4)) θ.W5 θ.b5)) θ.W6 θ.b6)

/-- The density head. -/
def density (n : ℕ) (G : Mat n 256) (W7 : Mat 256 4) (b7 : Vec1 4) : Mat n 1 :=
  softplus _ (cols n 4 0 1 (by decide) (affine n 256 4 G W7 b7))

/-- The colour head. -/
def rgb (n : ℕ) (G : Mat n 256) (W7 : Mat 256 4) (b7 : Vec1 4) : Mat n 3 :=
  colour _ (cols n 4 1 3 (by decide) (affine n 256 4 G W7 b7))

/-- The normal head. -/
def normal (n : ℕ) (G : Mat n 256) (nW0 : Mat 256 64) (nb0 : Vec1 64) (nW1 : Mat 64 64) (nb1 : Vec1 64) (nW2 : Mat 64 3)
    (nb2 : Vec1 3) : Mat n 3 :=
  normalize n (tanhA _ (affine n 64 3 (relu _ (affine n 64 64 (relu _ (affine n 256 64 G nW0 nb0)) nW1 nb1)) nW2 nb2))

/-- The weights and biases of the three heads. -/
structure Heads where
  W7 : Mat 256 4
  b7 : Vec1 4
  nW0 : Mat 256 64
  nb0 : Vec1 64
  nW1 : Mat 64 64
  nb1 : Vec1 64
  nW2 : Mat 64 3
  nb2 : Vec1 3

/-- The whole network: the three heads of the last hidden layer and a zero column, in eight columns. -/
def net8 (n : ℕ) (θ : Trunk) (η : Heads) (x : Mat n 63) : Mat n 8 :=
  packed n (density n (geo n θ x) η.W7 η.b7) (rgb n (geo n θ x) η.W7 η.b7)
    (normal n (geo n θ x) η.nW0 η.nb0 η.nW1 η.nb1 η.nW2 η.nb2)

/-! ## Taking a family of rows -/

variable (n' n : ℕ) (e : Fin n' → Fin n)

theorem h3_rows (θ : Trunk) (x : Mat n 63) : h3 n' θ (rows n' n 63 e x) = rows n' n 256 e (h3 n θ x) := by
  unfold h3
  simp only [affine_rows, relu_rows]

theorem geo_rows (θ : Trunk) (x : Mat n 63) : geo n' θ (rows n' n 63 e x) = rows n' n 256 e (geo n θ x) := by
  unfold geo
  simp only [h3_rows, sideBySide_rows, affine_rows, relu_rows]

theorem density_rows (G : Mat n 256) (W7 : Mat 256 4) (b7 : Vec1 4) :
    density n' (rows n' n 256 e G) W7 b7 = rows n' n 1 e (density n G W7 b7) := by
  unfold density
  simp only [affine_rows, cols_rows, softplus_rows]

theorem rgb_rows (G : Mat n 256) (W7 : Mat 256 4) (b7 : Vec1 4) :
    rgb n' (rows n' n 256 e G) W7 b7 = rows n' n 3 e (rgb n G W7 b7) := by
  unfold rgb
  simp only [affine_rows, cols_rows, colour_rows]

theorem normal_rows (G : Mat n 256) (nW0 : Mat 256 64) (nb0 : Vec1 64) (nW1 : Mat 64 64) (nb1 : Vec1 64)
    (nW2 : Mat 64 3) (nb2 : Vec1 3) :
    normal n' (rows n' n 256 e G) nW0 nb0 nW1 nb1 nW2 nb2 = rows n' n 3 e (normal n G nW0 nb0 nW1 nb1 nW2 nb2) := by
  unfold normal
  simp only [affine_rows, relu_rows, tanhA_rows, normalize_rows]

theorem net8_rows (θ : Trunk) (η : Heads) (x : Mat n 63) :
    net8 n' θ η (rows n' n 63 e x) = rows n' n 8 e (net8 n θ η x) := by
  unfold net8
  simp only [geo_rows, density_rows, rgb_rows, normal_rows, packed_rows]

end Cert.RowNet

end
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibMlpKernelSpell.lean ====
/-
  The vector unit's spellings of the row-wise network's layers, as whole arrays over an arbitrary number of rows and at
  the ideal values: each printed combination of operations is the layer of LibMlpLayers it computes.

    an affine map       a product into a zero accumulator plus the bias cast to a [1, N] row and broadcast down the rows;
    the skip layer      two such products added, then the bias: the row in two parts, each against its own weight; with
                        the two weights the leading and the remaining rows of one weight this is the affine map of the
                        two parts joined, because a sum over a + b terms is the sum of its first a and its last b terms;
    softplus            a select on 'd is not equal to itself' (never, for an extended real) between x + 0 and
                        max x 0 + log1p (exp (0 - |x - 0|)); the second is taken, and 0 - y is -y;
    the normal head     tanh, the row's sum of squares as a lane reduction, its square root kept as a column, the maximum
                        with a splat, the column broadcast along the row, and the quotient;
    the packed block    a concatenation of four pieces along the columns.

  Only the associativity and commutativity of the sum are used, so the equalities hold for all extended reals.
-/
import Idealize.ShloMosaic.Lib.IdealHost
import proofs.«110630_j78632261256031_2_alg».proof.Proof.LibMlpLayers
import proofs.«110630_j78632261256031_2_alg».proof.Proof.LibColumnReads
import proofs.«110630_j78632261256031_2_alg».proof.Proof.LibRowReads

noncomputable section

namespace Cert.RowNet

open Idealize.ShloMosaic Idealize.ShloMosaic.ValueIdx Cert.Lib.RowLayers

/-! ## Shared by both programs: a slice of columns, the comparison of a value with itself -/

/-- A slice of 'w' columns from column 'o' (either program spells it this way). -/
theorem cols_eq (n d o w : ℕ) (h : o + w ≤ d) (X : Mat n d)
    (hs : (⟨2, ![n, d]⟩ : Shape).Slices ![0, o] ⟨2, ![n, w]⟩) :
    extractStridedSlice ⟨2, ![n, w]⟩ ![0, o] X hs = cols n d o w h X := by
  funext i
  obtain ⟨p, q, rfl⟩ : ∃ (p : Fin n) (q : Fin w), i = ix2 p q := ⟨i 0, i 1, eq_ix2 i⟩
  exact slice2_axis1_apply o X hs p q _ rfl

/-- No extended real differs from itself, ordered or unordered reading alike. -/
theorem cmp_self_one (a : EReal) : Ideal.cmp .one a a = 0#1 := by simp [Ideal.cmp]

theorem cmp_self_une (a : EReal) : Ideal.cmp .une a a = 0#1 := by simp [Ideal.cmp]

namespace Kernel

/-! ## The affine layers -/

theorem affine_eq (n K N : ℕ) {φ₁ φ₂ : FTy} (X : FVec Ideal ⟨2, ![n, K]⟩ φ₁) (W : FVec Ideal ⟨2, ![K, N]⟩ φ₂)
    (b : FVec Ideal ⟨1, ![N]⟩ .f32)
    (hS : (⟨1, ![N]⟩ : Shape).ShapeCasts ⟨2, ![1, N]⟩) (hB : (⟨2, ![1, N]⟩ : Shape).Broadcasts ⟨2, ![n, N]⟩) :
    addf (matmul (DotDims.plain n K N) none X W (constant ⟨2, ![n, N]⟩ .f32 0x00000000#32))
        (broadcastTo ⟨2, ![n, N]⟩ (shapeCast ⟨2, ![1, N]⟩ b hS) hB)
      = affine n K N X W b := by
  funext i
  obtain ⟨p, q, rfl⟩ : ∃ (p : Fin n) (q : Fin N), i = ix2 p q := ⟨i 0, i 1, eq_ix2 i⟩
  show FloatOps.matmul (DotDims.plain n K N) none X W (constant ⟨2, ![n, N]⟩ .f32 0x00000000#32) (ix2 p q)
      + broadcastTo ⟨2, ![n, N]⟩ (shapeCast ⟨2, ![1, N]⟩ b hS) hB (ix2 p q)
    = (∑ k : Fin K, X (ix2 p k) * W (ix2 k q)) + b (ix1 q)
  rw [matmul_zero_ix2, broadcastTo_1b_ab_apply, shapeCast_a_1a_apply]

theorem affine2_eq (n a b N : ℕ) {φ₁ φ₂ φ₃ φ₄ : FTy} (X : FVec Ideal ⟨2, ![n, a]⟩ φ₁) (H : FVec Ideal ⟨2, ![n, b]⟩ φ₂)
    (Wa : FVec Ideal ⟨2, ![a, N]⟩ φ₃) (Wb : FVec Ideal ⟨2, ![b, N]⟩ φ₄) (bias : FVec Ideal ⟨1, ![N]⟩ .f32)
    (hS : (⟨1, ![N]⟩ : Shape).ShapeCasts ⟨2, ![1, N]⟩) (hB : (⟨2, ![1, N]⟩ : Shape).Broadcasts ⟨2, ![n, N]⟩) :
    addf (addf (matmul (DotDims.plain n a N) none X Wa (constant ⟨2, ![n, N]⟩ .f32 0x00000000#32))
          (matmul (DotDims.plain n b N) none H Wb (constant ⟨2, ![n, N]⟩ .f32 0x00000000#32)))
        (broadcastTo ⟨2, ![n, N]⟩ (shapeCast ⟨2, ![1, N]⟩ bias hS) hB)
      = affine2 n a b N X H Wa Wb bias := by
  funext i
  obtain ⟨p, q, rfl⟩ : ∃ (p : Fin n) (q : Fin N), i = ix2 p q := ⟨i 0, i 1, eq_ix2 i⟩
  show (FloatOps.matmul (DotDims.plain n a N) none X Wa (constant ⟨2, ![n, N]⟩ .f32 0x00000000#32) (ix2 p q)
        + FloatOps.matmul (DotDims.plain n b N) none H Wb (constant ⟨2, ![n, N]⟩ .f32 0x00000000#32) (ix2 p q))
      + broadcastTo ⟨2, ![n, N]⟩ (shapeCast ⟨2, ![1, N]⟩ bias hS) hB (ix2 p q)
    = ((∑ k : Fin a, X (ix2 p k) * Wa (ix2 k q)) + (∑ k : Fin b, H (ix2 p k) * Wb (ix2 k q))) + bias (ix1 q)
  rw [matmul_zero_ix2, matmul_zero_ix2, broadcastTo_1b_ab_apply, shapeCast_a_1a_apply]

/-- The row in two parts against the leading 'a' and the remaining 'b' rows of one weight is the joined row against the
    whole weight: a sum over a + b terms split after the first a. -/
theorem affine2_split (n a b c N : ℕ) (hc : c = a + b) (X : Mat n a) (H : Mat n b) (W : Mat c N) (bias : Vec1 N)
    (hA : (⟨2, ![c, N]⟩ : Shape).Slices ![0, 0] ⟨2, ![a, N]⟩)
    (hB : (⟨2, ![c, N]⟩ : Shape).Slices ![a, 0] ⟨2, ![b, N]⟩) :
    affine2 n a b N X H (extractStridedSlice ⟨2, ![a, N]⟩ ![0, 0] W hA) (extractStridedSlice ⟨2, ![b, N]⟩ ![a, 0] W hB) bias
      = affine n c N (sideBySide n a b c hc X H) W bias := by
  subst hc
  funext i
  obtain ⟨p, q, rfl⟩ : ∃ (p : Fin n) (q : Fin N), i = ix2 p q := ⟨i 0, i 1, eq_ix2 i⟩
  show ((∑ k : Fin a, X (ix2 p k) * extractStridedSlice ⟨2, ![a, N]⟩ ![0, 0] W hA (ix2 k q))
        + (∑ k : Fin b, H (ix2 p k) * extractStridedSlice ⟨2, ![b, N]⟩ ![a, 0] W hB (ix2 k q))) + bias (ix1 q)
    = (∑ k : Fin (a + b), sideBySide n a b (a + b) rfl X H (ix2 p k) * W (ix2 k q)) + bias (ix1 q)
  refine congrArg (· + bias (ix1 q)) ?_
  rw [Fin.sum_univ_add]
  refine congrArg₂ (· + ·) (Finset.sum_congr rfl fun k _ => ?_) (Finset.sum_congr rfl fun k _ => ?_)
  · rw [slice2_axis0_apply 0 W hA k q (Fin.castAdd b k) (by show k.val = 0 + k.val; omega)]
    refine congrArg (· * W (ix2 (Fin.castAdd b k) q)) ?_
    show X (ix2 p k) = dite _ _ _
    rw [dif_pos (show ((ix2 p (Fin.castAdd b k) : (⟨2, ![n, a + b]⟩ : Shape).Idx) 1).val < a from k.isLt)]
    rfl
  · rw [slice2_axis0_apply a W hB k q (Fin.natAdd a k) rfl]
    refine congrArg (· * W (ix2 (Fin.natAdd a k) q)) ?_
    show H (ix2 p k) = dite _ _ _
    rw [dif_neg (show ¬((ix2 p (Fin.natAdd a k) : (⟨2, ![n, a + b]⟩ : Shape).Idx) 1).val < a from
      Nat.not_lt.2 (Nat.le_add_right a k.val))]
    exact congrArg H (congrArg (ix2 p) (Fin.ext (Nat.add_sub_cancel_left a k.val).symm))

/-! ## The heads -/

theorem softplus_pt (x z : EReal) (hz : z = Ideal.ofBits .f32 0x00000000#32) :
    Scalar.select (Ideal.cmp .one (x - z) (x - z)) (x + z)
        (max x z + Ideal.log1p (Ideal.exp (z - FloatOps.absf (F := Ideal) (φ := .f32) (x - z))))
      = max x (Ideal.ofBits .f32 0x00000000#32)
        + Ideal.log1p (Ideal.exp (-(FloatOps.absf (F := Ideal) (φ := .f32) (x - Ideal.ofBits .f32 0x00000000#32)))) := by
  subst hz
  rw [cmp_self_one, select_zero]
  simp only [Ideal.ofBits_zero_f32, zero_sub]

theorem softplus_eq (s : Shape) (x : FVec Ideal s .f32) :
    select (cmpf .one (subf x (broadcast s (Scalar.ofBits .f32 0x00000000#32)))
          (subf x (broadcast s (Scalar.ofBits .f32 0x00000000#32))))
        (addf x (broadcast s (Scalar.ofBits .f32 0x00000000#32)))
        (addf (maximumf x (broadcast s (Scalar.ofBits .f32 0x00000000#32)))
          (log1p (exp (subf (broadcast s (Scalar.ofBits .f32 0x00000000#32))
            (absf (subf x (broadcast s (Scalar.ofBits .f32 0x00000000#32))))))))
      = softplus s x :=
  funext fun i => softplus_pt (x i) _ rfl

theorem colour_eq (s : Shape) (x : FVec Ideal s .f32) :
    subf (mulf (logistic x) (broadcast s (Scalar.ofBits .f32 0x3F804189#32))) (broadcast s (Scalar.ofBits .f32 0x3A83126F#32))
      = colour s x := rfl

theorem tanh_eq (s : Shape) (x : FVec Ideal s .f32) : tanh x = tanhA s x := rfl

theorem normalize_eq (n : ℕ) (T : FVec Ideal ⟨2, ![n, 3]⟩ .f32)
    (hR : (⟨2, ![n, 3]⟩ : Shape).Reduces [1] ⟨1, ![n]⟩)
    (hacc : (0x00000000#32 : BitVec 32) = 0x00000000#32)
    (hS : (⟨1, ![n]⟩ : Shape).ShapeCasts ⟨2, ![n, 1]⟩) (hB : (⟨2, ![n, 1]⟩ : Shape).Broadcasts ⟨2, ![n, 3]⟩) :
    divf T (broadcastTo ⟨2, ![n, 3]⟩
        (maximumf (sqrt (shapeCast ⟨2, ![n, 1]⟩ (multiReduction .add [1] ⟨1, ![n]⟩ (mulf T T) 0x00000000#32 hR (.inl rfl) hacc) hS))
          (broadcast ⟨2, ![n, 1]⟩ (Scalar.ofBits .f32 0x2B8CBCCC#32))) hB)
      = normalize n T := by
  funext i
  obtain ⟨p, q, rfl⟩ : ∃ (p : Fin n) (q : Fin 3), i = ix2 p q := ⟨i 0, i 1, eq_ix2 i⟩
  have e1 : multiReduction (F := Ideal) .add [1] ⟨1, ![n]⟩ (mulf T T) 0x00000000#32 hR (.inl rfl) hacc (ix1 p)
      = T (ix2 p 0) * T (ix2 p 0) + T (ix2 p 1) * T (ix2 p 1) + T (ix2 p 2) * T (ix2 p 2) :=
    (Cert.LibRowReads.rowSum_apply (mulf T T) _ hR (.inl rfl) hacc p).trans (Fin.sum_univ_three _)
  show Ideal.div (T (ix2 p q)) (broadcastTo ⟨2, ![n, 3]⟩
      (maximumf (sqrt (shapeCast ⟨2, ![n, 1]⟩ (multiReduction .add [1] ⟨1, ![n]⟩ (mulf T T) 0x00000000#32 hR (.inl rfl) hacc) hS))
        (broadcast ⟨2, ![n, 1]⟩ (Scalar.ofBits .f32 0x2B8CBCCC#32))) hB (ix2 p q)) = _
  rw [Cert.LibColumnReads.broadcastTo_a1_ab_apply]
  show Ideal.div (T (ix2 p q)) (max (Ideal.sqrt (shapeCast ⟨2, ![n, 1]⟩
      (multiReduction .add [1] ⟨1, ![n]⟩ (mulf T T) 0x00000000#32 hR (.inl rfl) hacc) hS (ix2 p (0 : Fin 1))))
      (Ideal.ofBits .f32 0x2B8CBCCC#32)) = _
  rw [Cert.LibColumnReads.shapeCast_a_a1_apply, e1]
  rfl

/-! ## The packed block -/

theorem packed_eq (n : ℕ) (D : Mat n 1) (R P : Mat n 3)
    (hc : Shape.Concatenates [(⟨2, ![n, 1]⟩ : Shape), ⟨2, ![n, 3]⟩, ⟨2, ![n, 3]⟩, ⟨2, ![n, 1]⟩] ⟨2, ![n, 8]⟩ 1) :
    concatenate ⟨2, ![n, 8]⟩ 1 [⟨⟨2, ![n, 1]⟩, D⟩, ⟨⟨2, ![n, 3]⟩, R⟩, ⟨⟨2, ![n, 3]⟩, P⟩,
        ⟨⟨2, ![n, 1]⟩, broadcast ⟨2, ![n, 1]⟩ (Scalar.ofBits (F := Ideal) .f32 0x00000000#32)⟩] hc
      = packed n D R P := by
  funext i
  obtain ⟨p, q, rfl⟩ : ∃ (p : Fin n) (q : Fin 8), i = ix2 p q := ⟨i 0, i 1, eq_ix2 i⟩
  let xs : List ((s : Shape) × (s.Idx → EReal)) :=
    [⟨⟨2, ![n, 1]⟩, D⟩, ⟨⟨2, ![n, 3]⟩, R⟩, ⟨⟨2, ![n, 3]⟩, P⟩,
      ⟨⟨2, ![n, 1]⟩, broadcast ⟨2, ![n, 1]⟩ (Scalar.ofBits (F := Ideal) .f32 0x00000000#32)⟩]
  show concatenate ⟨2, ![n, 8]⟩ 1 xs hc (ix2 p q) = packedAt n D R P p q
  unfold packedAt
  have hq8 : q.val < 8 := q.isLt
  by_cases h0 : q.val < 1
  · rw [if_pos h0]
    exact concatenate_apply_piece 1 xs hc (ix2 p q) 0 (by show (0 : ℕ) < 4; omega) ⟨2, ![n, 1]⟩ D rfl rfl 0 rfl
      (ix2 p (0 : Fin 1))
      (fun b hb => match b, hb with
        | ⟨0, _⟩, _ => rfl
        | ⟨1, _⟩, hb => absurd rfl hb) (by show 0 + 0 = q.val; omega)
  · rw [if_neg h0]
    by_cases h1 : q.val < 4
    · rw [dif_pos h1]
      exact concatenate_apply_piece 1 xs hc (ix2 p q) 1 (by show (1 : ℕ) < 4; omega) ⟨2, ![n, 3]⟩ R rfl rfl 1 rfl
        (ix2 p ⟨q.val - 1, by omega⟩)
        (fun b hb => match b, hb with
          | ⟨0, _⟩, _ => rfl
          | ⟨1, _⟩, hb => absurd rfl hb) (by show 1 + (q.val - 1) = q.val; omega)
    · rw [dif_neg h1]
      by_cases h2 : q.val < 7
      · rw [dif_pos h2]
        exact concatenate_apply_piece 1 xs hc (ix2 p q) 2 (by show (2 : ℕ) < 4; omega) ⟨2, ![n, 3]⟩ P rfl rfl 4 rfl
          (ix2 p ⟨q.val - 4, by omega⟩)
          (fun b hb => match b, hb with
            | ⟨0, _⟩, _ => rfl
            | ⟨1, _⟩, hb => absurd rfl hb) (by show 4 + (q.val - 4) = q.val; omega)
      · rw [dif_neg h2]
        exact concatenate_apply_piece 1 xs hc (ix2 p q) 3 (by show (3 : ℕ) < 4; omega) ⟨2, ![n, 1]⟩
          (broadcast ⟨2, ![n, 1]⟩ (Scalar.ofBits (F := Ideal) .f32 0x00000000#32)) rfl rfl 7 rfl (ix2 p (0 : Fin 1))
          (fun b hb => match b, hb with
            | ⟨0, _⟩, _ => rfl
            | ⟨1, _⟩, hb => absurd rfl hb) (by show 7 + 0 = q.val; omega)

end Kernel

/-! ## The columns of the packed block -/

theorem cols_packed_0 (n : ℕ) (D : Mat n 1) (R P : Mat n 3) : cols n 8 0 1 (by decide) (packed n D R P) = D := by
  funext i
  obtain ⟨p, q, rfl⟩ : ∃ (p : Fin n) (q : Fin 1), i = ix2 p q := ⟨i 0, i 1, eq_ix2 i⟩
  have hq : q = 0 := Subsingleton.elim _ _
  subst hq
  rfl

theorem cols_packed_1 (n : ℕ) (D : Mat n 1) (R P : Mat n 3) : cols n 8 1 3 (by decide) (packed n D R P) = R := by
  funext i
  obtain ⟨p, q, rfl⟩ : ∃ (p : Fin n) (q : Fin 3), i = ix2 p q := ⟨i 0, i 1, eq_ix2 i⟩
  have hq : q.val < 3 := q.isLt
  show packedAt n D R P p ⟨1 + q.val, _⟩ = R (ix2 p q)
  unfold packedAt
  rw [if_neg (show ¬(1 + q.val < 1) by omega), dif_pos (show 1 + q.val < 4 by omega)]
  exact congrArg R (congrArg (ix2 p) (Fin.ext (Nat.add_sub_cancel_left 1 q.val)))

theorem cols_packed_4 (n : ℕ) (D : Mat n 1) (R P : Mat n 3) : cols n 8 4 3 (by decide) (packed n D R P) = P := by
  funext i
  obtain ⟨p, q, rfl⟩ : ∃ (p : Fin n) (q : Fin 3), i = ix2 p q := ⟨i 0, i 1, eq_ix2 i⟩
  have hq : q.val < 3 := q.isLt
  show packedAt n D R P p ⟨4 + q.val, _⟩ = P (ix2 p q)
  unfold packedAt
  rw [if_neg (show ¬(4 + q.val < 1) by omega), dif_neg (show ¬(4 + q.val < 4) by omega),
    dif_pos (show 4 + q.val < 7 by omega)]
  exact congrArg P (congrArg (ix2 p) (Fin.ext (Nat.add_sub_cancel_left 4 q.val)))

end Cert.RowNet

end
-- ==== Proof.KernelValue.lean ====
/-
  The kernel body's payloads at the ideal values are the row-wise network of RowNet on a block of 4096 rows.

  The body's arithmetic is a handful of pure terms over the loaded blocks (the skeleton's payloads): the first four
  hidden layers, the skip layer and the last two hidden layers, the head's affine map with its two slices, the normal
  head's two hidden layers, and the packed block with the normal head's last layer. Each is rewritten layer by layer: a
  change of float format and a shape cast to the same shape are the identity, the printed dimension numbers are the plain
  M x K by K x N ones, and every remaining combination of operations is one of the layers.
-/
import proofs.«110630_j78632261256031_2_alg».proof.Proof.Gen.KernelIdeal.Skeleton
import proofs.«110630_j78632261256031_2_alg».proof.Proof.RowNet
import proofs.«110630_j78632261256031_2_alg».proof.Proof.LibMlpKernelSpell

noncomputable section

namespace Cert.KernelValue

open Cert.KernelIdeal Cert.KernelIdeal.Gen Idealize.ShloMosaic Idealize.ShloMosaic.ValueIdx Cert.Lib.RowLayers Cert.RowNet

/-! ## The printed dimension numbers are the plain ones -/

theorem dot_63_256 : dot_S4096x63_S63x256_S4096x256_1_0_0_1_n_n = DotDims.plain 4096 63 256 := rfl
theorem dot_256_256 : dot_S4096x256_S256x256_S4096x256_1_0_0_1_n_n = DotDims.plain 4096 256 256 := rfl
theorem dot_256_4 : dot_S4096x256_S256x4_S4096x4_1_0_0_1_n_n = DotDims.plain 4096 256 4 := rfl
theorem dot_256_64 : dot_S4096x256_S256x64_S4096x64_1_0_0_1_n_n = DotDims.plain 4096 256 64 := rfl
theorem dot_64_64 : dot_S4096x64_S64x64_S4096x64_1_0_0_1_n_n = DotDims.plain 4096 64 64 := rfl
theorem dot_64_3 : dot_S4096x64_S64x3_S4096x3_1_0_0_1_n_n = DotDims.plain 4096 64 3 := rfl

/-! ## The trunk -/

/-- The fourth hidden layer's product, before its bias: the payload of the first part of the body. -/
theorem pay3_eq (θ : Trunk) (x : Mat 4096 63) :
    addf (k0_pay3 (F := Ideal) x θ.W0 θ.b0 θ.W1 θ.b1 θ.W2 θ.b2 θ.W3) (k0_pay4 (F := Ideal) θ.b3)
      = affine 4096 256 256 (relu _ (affine 4096 256 256 (relu _ (affine 4096 256 256 (relu _ (affine 4096 63 256 x θ.W0 θ.b0))
          θ.W1 θ.b1)) θ.W2 θ.b2)) θ.W3 θ.b3 := by
  unfold k0_pay3 k0_pay4 k0_pay2
  dsimp only
  simp only [truncf_id, Idealize.ShloMosaic.shapeCast_self, dot_63_256, dot_256_256, Kernel.affine_eq, kernel_relu]

/-- The last hidden layer: the skip layer on the input block and the fourth hidden layer, then two more hidden layers. -/
theorem pay5_eq (θ : Trunk) (x : Mat 4096 63)
    (hA : (⟨2, ![319, 256]⟩ : Shape).Slices ![0, 0] ⟨2, ![63, 256]⟩)
    (hB : (⟨2, ![319, 256]⟩ : Shape).Slices ![63, 0] ⟨2, ![256, 256]⟩) :
    k0_pay5 (F := Ideal) (k0_pay2 (F := Ideal) x) (k0_pay3 (F := Ideal) x θ.W0 θ.b0 θ.W1 θ.b1 θ.W2 θ.b2 θ.W3)
        (k0_pay4 (F := Ideal) θ.b3)
        (extractStridedSlice ⟨2, ![63, 256]⟩ ![0, 0] θ.W4 hA) (extractStridedSlice ⟨2, ![256, 256]⟩ ![63, 0] θ.W4 hB)
        θ.b4 θ.W5 θ.b5 θ.W6 θ.b6
      = geo 4096 θ x := by
  have h34 := pay3_eq θ x
  unfold k0_pay5
  dsimp only
  rw [h34]
  unfold k0_pay2
  dsimp only
  simp only [truncf_id, Idealize.ShloMosaic.shapeCast_self, dot_63_256, dot_256_256, Kernel.affine_eq, Kernel.affine2_eq,
    kernel_relu]
  rw [Kernel.affine2_split 4096 63 256 319 256 rfl x _ θ.W4 θ.b4 hA hB]
  rfl

/-! ## The heads -/

theorem pay6_eq (G : Mat 4096 256) (η : Heads) :
    k0_pay6 (F := Ideal) G η.W7 (constant S4096x4 .f32 0x00000000#32) η.b7 = affine 4096 256 4 G η.W7 η.b7 := by
  unfold k0_pay6
  dsimp only
  simp only [dot_256_4, Kernel.affine_eq]

theorem pay7_eq (G : Mat 4096 256) (η : Heads) :
    k0_pay7 (F := Ideal) G η.W7 (constant S4096x4 .f32 0x00000000#32) η.b7 = density 4096 G η.W7 η.b7 := by
  unfold k0_pay7
  dsimp only
  rw [pay6_eq, cols_eq 4096 4 0 1 (by decide) _ slices_S4096x4_o0_0_S4096x1]
  exact Kernel.softplus_eq _ _

theorem pay8_eq (G : Mat 4096 256) (η : Heads) :
    k0_pay8 (F := Ideal) G η.W7 (constant S4096x4 .f32 0x00000000#32) η.b7 = rgb 4096 G η.W7 η.b7 := by
  unfold k0_pay8
  dsimp only
  rw [pay6_eq, cols_eq 4096 4 1 3 (by decide) _ slices_S4096x4_o0_1_S4096x3]
  rfl

theorem pay9_eq (G : Mat 4096 256) (η : Heads) :
    k0_pay9 (F := Ideal) G η.nW0 η.nb0 η.nW1 η.nb1
      = relu _ (affine 4096 64 64 (relu _ (affine 4096 256 64 G η.nW0 η.nb0)) η.nW1 η.nb1) := by
  unfold k0_pay9
  dsimp only
  simp only [dot_256_64, dot_64_64, Kernel.affine_eq, kernel_relu]

theorem pay1_eq (D : Mat 4096 1) (R : Mat 4096 3) (g : Mat 4096 64) (η : Heads) :
    k0_pay1 (F := Ideal) D R g η.nW2 η.nb2
      = packed 4096 D R (normalize 4096 (tanhA _ (affine 4096 64 3 g η.nW2 η.nb2))) := by
  unfold k0_pay1
  dsimp only
  rw [dot_64_3, Kernel.affine_eq, Kernel.tanh_eq, Kernel.normalize_eq]
  exact Kernel.packed_eq 4096 D R _ _

/-- The whole block the body stores: the network of the input block. -/
theorem body_eq (θ : Trunk) (η : Heads) (x : Mat 4096 63)
    (hA : (⟨2, ![319, 256]⟩ : Shape).Slices ![0, 0] ⟨2, ![63, 256]⟩)
    (hB : (⟨2, ![319, 256]⟩ : Shape).Slices ![63, 0] ⟨2, ![256, 256]⟩) :
    k0_pay1 (F := Ideal)
      (k0_pay7 (F := Ideal)
        (k0_pay5 (F := Ideal) (k0_pay2 (F := Ideal) x) (k0_pay3 (F := Ideal) x θ.W0 θ.b0 θ.W1 θ.b1 θ.W2 θ.b2 θ.W3)
          (k0_pay4 (F := Ideal) θ.b3)
          (extractStridedSlice ⟨2, ![63, 256]⟩ ![0, 0] θ.W4 hA) (extractStridedSlice ⟨2, ![256, 256]⟩ ![63, 0] θ.W4 hB)
          θ.b4 θ.W5 θ.b5 θ.W6 θ.b6)
        η.W7 (constant S4096x4 .f32 0x00000000#32) η.b7)
      (k0_pay8 (F := Ideal)
        (k0_pay5 (F := Ideal) (k0_pay2 (F := Ideal) x) (k0_pay3 (F := Ideal) x θ.W0 θ.b0 θ.W1 θ.b1 θ.W2 θ.b2 θ.W3)
          (k0_pay4 (F := Ideal) θ.b3)
          (extractStridedSlice ⟨2, ![63, 256]⟩ ![0, 0] θ.W4 hA) (extractStridedSlice ⟨2, ![256, 256]⟩ ![63, 0] θ.W4 hB)
          θ.b4 θ.W5 θ.b5 θ.W6 θ.b6)
        η.W7 (constant S4096x4 .f32 0x00000000#32) η.b7)
      (k0_pay9 (F := Ideal)
        (k0_pay5 (F := Ideal) (k0_pay2 (F := Ideal) x) (k0_pay3 (F := Ideal) x θ.W0 θ.b0 θ.W1 θ.b1 θ.W2 θ.b2 θ.W3)
          (k0_pay4 (F := Ideal) θ.b3)
          (extractStridedSlice ⟨2, ![63, 256]⟩ ![0, 0] θ.W4 hA) (extractStridedSlice ⟨2, ![256, 256]⟩ ![63, 0] θ.W4 hB)
          θ.b4 θ.W5 θ.b5 θ.W6 θ.b6)
        η.nW0 η.nb0 η.nW1 η.nb1)
      η.nW2 η.nb2
      = net8 4096 θ η x := by
  rw [pay5_eq θ x hA hB, pay7_eq, pay8_eq, pay9_eq, pay1_eq]
  rfl

end Cert.KernelValue

end
-- ==== Proof.KernelLaunch.lean ====
/-
  The launch memory read as the network's weights, the function the kernel's output array ends at, and the one window
  that moves: window 0 stages, at grid point t, rows 4096 t .. 4096 t + 4095 of the input.

  The grid has 64 points. The block index of window 0 (the input) and of window 24 (the output) is the point itself on
  the row axis and zero on the column axis: decided once over the grid.
-/
import proofs.«110630_j78632261256031_2_alg».proof.Proof.Gen.KernelIdeal.Frame
import proofs.«110630_j78632261256031_2_alg».proof.Proof.KernelValue
import Idealize.ShloMosaic.Lib.Pipeline.Value
import Idealize.ShloMosaic.Lib.StableHlo.Run

set_option maxRecDepth 16384

noncomputable section

namespace Cert.KernelBlocks

open Cert.KernelIdeal Cert.KernelIdeal.Gen Idealize.ShloMosaic Idealize.ShloMosaic.TcCoe Idealize.SL.Sem
  Idealize.ShloMosaic.ValueIdx Cert.Lib.RowLayers Cert.RowNet
open Idealize.ShloMosaic.Pipeline (Dat Cfg Window)

variable (m : (ℓ : Loc nD τ sig) → Buf (Elt Ideal) ℓ) (ρ : Dev nD → PrngReg)

/-- The trunk's weights and biases as launched. -/
def θ (c : Dev nD) : Trunk :=
  ⟨m ((c.tc : Thread nD τ).loc main_arg1), m ((c.tc : Thread nD τ).loc main_arg2),
    m ((c.tc : Thread nD τ).loc main_arg3), m ((c.tc : Thread nD τ).loc main_arg4),
    m ((c.tc : Thread nD τ).loc main_arg5), m ((c.tc : Thread nD τ).loc main_arg6),
    m ((c.tc : Thread nD τ).loc main_arg7), m ((c.tc : Thread nD τ).loc main_arg8),
    m ((c.tc : Thread nD τ).loc main_arg9), m ((c.tc : Thread nD τ).loc main_arg10),
    m ((c.tc : Thread nD τ).loc main_arg11), m ((c.tc : Thread nD τ).loc main_arg12),
    m ((c.tc : Thread nD τ).loc main_arg13), m ((c.tc : Thread nD τ).loc main_arg14)⟩

/-- The heads' weights and biases as launched. -/
def η (c : Dev nD) : Heads :=
  ⟨m ((c.tc : Thread nD τ).loc main_arg15), m ((c.tc : Thread nD τ).loc main_arg16),
    m ((c.tc : Thread nD τ).loc main_arg17), m ((c.tc : Thread nD τ).loc main_arg18),
    m ((c.tc : Thread nD τ).loc main_arg19), m ((c.tc : Thread nD τ).loc main_arg20),
    m ((c.tc : Thread nD τ).loc main_arg21), m ((c.tc : Thread nD τ).loc main_arg22)⟩

/-- The network of the whole input as launched: what the output array ends holding. -/
def G (c : Dev nD) : Mat 262144 8 := net8 262144 (θ m c) (η m c) (m ((c.tc : Thread nD τ).loc main_arg0))

/-- The rows point k stages: row p of the block is row 4096 k + p of the array. -/
def blockRow (k : ℕ) (hk : k < 64) (p : Fin 4096) : Fin 262144 := ⟨k * 4096 + p.val, by have := p.isLt; omega⟩

theorem hz2 : (![0, 0] : Fin 2 → Nat) = fun _ => 0 := funext fun a => by fin_cases a <;> rfl
theorem hz1 : (![0] : Fin 1 → Nat) = fun _ => 0 := funext fun a => by fin_cases a; rfl

theorem hN : cfg0.N = 64 := N_0

/-- The printed index maps of the two moving windows, decided over the grid: the block index is the point. -/
theorem idx_facts : ∀ t : Fin cfg0.N, win0_0.index t (0 : Fin 2) = t.val ∧ win0_0.index t (1 : Fin 2) = 0
    ∧ win0_24.index t (0 : Fin 2) = t.val ∧ win0_24.index t (1 : Fin 2) = 0 :=
  (by decide +kernel : ∀ t : Fin grid0.N, _)

/-- Window 0's block at point t is rows 4096 t .. of the input as launched. -/
theorem iblk0_eq (c : Dev nD) (t : Fin cfg0.N) :
    (iblk m c 0 t : S4096x63.Idx → EReal)
      = rows 4096 262144 63 (blockRow t.val (hN ▸ t.isLt)) (m ((c.tc : Thread nD τ).loc main_arg0)) := by
  funext y
  show V m c main_arg0 (((cfg0.win 0).blk t).view.emb y) = _
  obtain ⟨e0, e1, -, -⟩ := idx_facts t
  have hy : ((cfg0.win 0).blk t).view.emb y = ix2 (blockRow t.val (hN ▸ t.isLt) (y 0)) (y 1) := by
    funext a; apply Fin.ext
    match a with
    | ⟨0, _⟩ => show win0_0.index t (0 : Fin 2) * 4096 + 1 * (y 0).val = t.val * 4096 + (y 0).val; rw [e0]; omega
    | ⟨1, _⟩ => show win0_0.index t (1 : Fin 2) * 63 + 1 * (y 1).val = (y 1).val; rw [e1]; omega
  rw [hy, V_main_arg0 m c]
  rfl

end Cert.KernelBlocks

end
-- ==== Proof.BlockReads.lean ====
/-
  A table: what each of the kernel's windows 1 to 23 stages at a grid point, and that the arguments end unchanged.
  Eight windows' arrays were written by the host before the region (a change of float format, the identity at the
  ideal values; for two of them after a slice of rows): their contents at the region's entry. Every one of the 23
  windows has the constant block index zero, so its block at any point is its whole array. The same shape of
  lemma 8, 23 and 23 times; the definitions and the argument are in KernelLaunch and KernelBlocks.
-/
import proofs.«110630_j78632261256031_2_alg».proof.Proof.KernelLaunch

set_option maxRecDepth 16384

noncomputable section

namespace Cert.KernelBlocks

open Cert.KernelIdeal Cert.KernelIdeal.Gen Idealize.ShloMosaic Idealize.ShloMosaic.TcCoe Idealize.SL.Sem
  Idealize.ShloMosaic.ValueIdx Cert.Lib.RowLayers Cert.RowNet
open Idealize.ShloMosaic.Pipeline (Dat Cfg Window)

variable (m : (ℓ : Loc nD τ sig) → Buf (Elt Ideal) ℓ) (ρ : Dev nD → PrngReg)

/-! ## What the host wrote before the region -/

theorem V_main_v0 (c : Dev nD) : (V m c main_v0 : S63x256.Idx → EReal) = (θ m c).W0 := by
  show StableHlo.after hostOps0 (fun b => m (c, b)) (Proc.devRef .tc main_v0) = _
  after_results
  rfl

theorem V_main_v1 (c : Dev nD) : (V m c main_v1 : S256x256.Idx → EReal) = (θ m c).W1 := by
  show StableHlo.after hostOps0 (fun b => m (c, b)) (Proc.devRef .tc main_v1) = _
  after_results
  rfl

theorem V_main_v2 (c : Dev nD) : (V m c main_v2 : S256x256.Idx → EReal) = (θ m c).W2 := by
  show StableHlo.after hostOps0 (fun b => m (c, b)) (Proc.devRef .tc main_v2) = _
  after_results
  rfl

theorem V_main_v3 (c : Dev nD) : (V m c main_v3 : S256x256.Idx → EReal) = (θ m c).W3 := by
  show StableHlo.after hostOps0 (fun b => m (c, b)) (Proc.devRef .tc main_v3) = _
  after_results
  rfl

theorem V_main_v5 (c : Dev nD) : (V m c main_v5 : S63x256.Idx → EReal) = extractStridedSlice ⟨2, ![63, 256]⟩ ![0, 0] (θ m c).W4 slices_S319x256_S63x256_0_0 := by
  show StableHlo.after hostOps0 (fun b => m (c, b)) (Proc.devRef .tc main_v5) = _
  after_results
  rfl

theorem V_main_v7 (c : Dev nD) : (V m c main_v7 : S256x256.Idx → EReal) = extractStridedSlice ⟨2, ![256, 256]⟩ ![63, 0] (θ m c).W4 slices_S319x256_S256x256_63_0 := by
  show StableHlo.after hostOps0 (fun b => m (c, b)) (Proc.devRef .tc main_v7) = _
  after_results
  rfl

theorem V_main_v8 (c : Dev nD) : (V m c main_v8 : S256x256.Idx → EReal) = (θ m c).W5 := by
  show StableHlo.after hostOps0 (fun b => m (c, b)) (Proc.devRef .tc main_v8) = _
  after_results
  rfl

theorem V_main_v9 (c : Dev nD) : (V m c main_v9 : S256x256.Idx → EReal) = (θ m c).W6 := by
  show StableHlo.after hostOps0 (fun b => m (c, b)) (Proc.devRef .tc main_v9) = _
  after_results
  rfl

/-! ## The whole-array windows' blocks -/

theorem iblk1_eq (c : Dev nD) (t : Fin cfg0.N) : (iblk m c 1 t : S63x256.Idx → EReal) = (θ m c).W0 := by
  funext y
  show V m c main_v0 (((cfg0.win 1).blk t).view.emb y) = _
  have hy : ((cfg0.win 1).blk t).view.emb y = y := by
    funext a; apply Fin.ext
    match a with
    | ⟨0, _⟩ => show win0_1.index t (0 : Fin 2) * 63 + 1 * (y 0).val = (y 0).val; show 0 * 63 + 1 * (y 0).val = (y 0).val; omega
    | ⟨1, _⟩ => show win0_1.index t (1 : Fin 2) * 256 + 1 * (y 1).val = (y 1).val; show 0 * 256 + 1 * (y 1).val = (y 1).val; omega
  rw [hy, V_main_v0 m c]

theorem iblk2_eq (c : Dev nD) (t : Fin cfg0.N) : (iblk m c 2 t : S256.Idx → EReal) = (θ m c).b0 := by
  funext y
  show V m c main_arg2 (((cfg0.win 2).blk t).view.emb y) = _
  have hy : ((cfg0.win 2).blk t).view.emb y = y := by
    funext a; apply Fin.ext
    match a with
    | ⟨0, _⟩ => show win0_2.index t (0 : Fin 1) * 256 + 1 * (y 0).val = (y 0).val; show 0 * 256 + 1 * (y 0).val = (y 0).val; omega
  rw [hy, V_main_arg2 m c]
  rfl

theorem iblk3_eq (c : Dev nD) (t : Fin cfg0.N) : (iblk m c 3 t : S256x256.Idx → EReal) = (θ m c).W1 := by
  funext y
  show V m c main_v1 (((cfg0.win 3).blk t).view.emb y) = _
  have hy : ((cfg0.win 3).blk t).view.emb y = y := by
    funext a; apply Fin.ext
    match a with
    | ⟨0, _⟩ => show win0_3.index t (0 : Fin 2) * 256 + 1 * (y 0).val = (y 0).val; show 0 * 256 + 1 * (y 0).val = (y 0).val; omega
    | ⟨1, _⟩ => show win0_3.index t (1 : Fin 2) * 256 + 1 * (y 1).val = (y 1).val; show 0 * 256 + 1 * (y 1).val = (y 1).val; omega
  rw [hy, V_main_v1 m c]

theorem iblk4_eq (c : Dev nD) (t : Fin cfg0.N) : (iblk m c 4 t : S256.Idx → EReal) = (θ m c).b1 := by
  funext y
  show V m c main_arg4 (((cfg0.win 4).blk t).view.emb y) = _
  have hy : ((cfg0.win 4).blk t).view.emb y = y := by
    funext a; apply Fin.ext
    match a with
    | ⟨0, _⟩ => show win0_4.index t (0 : Fin 1) * 256 + 1 * (y 0).val = (y 0).val; show 0 * 256 + 1 * (y 0).val = (y 0).val; omega
  rw [hy, V_main_arg4 m c]
  rfl

theorem iblk5_eq (c : Dev nD) (t : Fin cfg0.N) : (iblk m c 5 t : S256x256.Idx → EReal) = (θ m c).W2 := by
  funext y
  show V m c main_v2 (((cfg0.win 5).blk t).view.emb y) = _
  have hy : ((cfg0.win 5).blk t).view.emb y = y := by
    funext a; apply Fin.ext
    match a with
    | ⟨0, _⟩ => show win0_5.index t (0 : Fin 2) * 256 + 1 * (y 0).val = (y 0).val; show 0 * 256 + 1 * (y 0).val = (y 0).val; omega
    | ⟨1, _⟩ => show win0_5.index t (1 : Fin 2) * 256 + 1 * (y 1).val = (y 1).val; show 0 * 256 + 1 * (y 1).val = (y 1).val; omega
  rw [hy, V_main_v2 m c]

theorem iblk6_eq (c : Dev nD) (t : Fin cfg0.N) : (iblk m c 6 t : S256.Idx → EReal) = (θ m c).b2 := by
  funext y
  show V m c main_arg6 (((cfg0.win 6).blk t).view.emb y) = _
  have hy : ((cfg0.win 6).blk t).view.emb y = y := by
    funext a; apply Fin.ext
    match a with
    | ⟨0, _⟩ => show win0_6.index t (0 : Fin 1) * 256 + 1 * (y 0).val = (y 0).val; show 0 * 256 + 1 * (y 0).val = (y 0).val; omega
  rw [hy, V_main_arg6 m c]
  rfl

theorem iblk7_eq (c : Dev nD) (t : Fin cfg0.N) : (iblk m c 7 t : S256x256.Idx → EReal) = (θ m c).W3 := by
  funext y
  show V m c main_v3 (((cfg0.win 7).blk t).view.emb y) = _
  have hy : ((cfg0.win 7).blk t).view.emb y = y := by
    funext a; apply Fin.ext
    match a with
    | ⟨0, _⟩ => show win0_7.index t (0 : Fin 2) * 256 + 1 * (y 0).val = (y 0).val; show 0 * 256 + 1 * (y 0).val = (y 0).val; omega
    | ⟨1, _⟩ => show win0_7.index t (1 : Fin 2) * 256 + 1 * (y 1).val = (y 1).val; show 0 * 256 + 1 * (y 1).val = (y 1).val; omega
  rw [hy, V_main_v3 m c]

theorem iblk8_eq (c : Dev nD) (t : Fin cfg0.N) : (iblk m c 8 t : S256.Idx → EReal) = (θ m c).b3 := by
  funext y
  show V m c main_arg8 (((cfg0.win 8).blk t).view.emb y) = _
  have hy : ((cfg0.win 8).blk t).view.emb y = y := by
    funext a; apply Fin.ext
    match a with
    | ⟨0, _⟩ => show win0_8.index t (0 : Fin 1) * 256 + 1 * (y 0).val = (y 0).val; show 0 * 256 + 1 * (y 0).val = (y 0).val; omega
  rw [hy, V_main_arg8 m c]
  rfl

theorem iblk9_eq (c : Dev nD) (t : Fin cfg0.N) : (iblk m c 9 t : S63x256.Idx → EReal) = extractStridedSlice ⟨2, ![63, 256]⟩ ![0, 0] (θ m c).W4 slices_S319x256_S63x256_0_0 := by
  funext y
  show V m c main_v5 (((cfg0.win 9).blk t).view.emb y) = _
  have hy : ((cfg0.win 9).blk t).view.emb y = y := by
    funext a; apply Fin.ext
    match a with
    | ⟨0, _⟩ => show win0_9.index t (0 : Fin 2) * 63 + 1 * (y 0).val = (y 0).val; show 0 * 63 + 1 * (y 0).val = (y 0).val; omega
    | ⟨1, _⟩ => show win0_9.index t (1 : Fin 2) * 256 + 1 * (y 1).val = (y 1).val; show 0 * 256 + 1 * (y 1).val = (y 1).val; omega
  rw [hy, V_main_v5 m c]

theorem iblk10_eq (c : Dev nD) (t : Fin cfg0.N) : (iblk m c 10 t : S256x256.Idx → EReal) = extractStridedSlice ⟨2, ![256, 256]⟩ ![63, 0] (θ m c).W4 slices_S319x256_S256x256_63_0 := by
  funext y
  show V m c main_v7 (((cfg0.win 10).blk t).view.emb y) = _
  have hy : ((cfg0.win 10).blk t).view.emb y = y := by
    funext a; apply Fin.ext
    match a with
    | ⟨0, _⟩ => show win0_10.index t (0 : Fin 2) * 256 + 1 * (y 0).val = (y 0).val; show 0 * 256 + 1 * (y 0).val = (y 0).val; omega
    | ⟨1, _⟩ => show win0_10.index t (1 : Fin 2) * 256 + 1 * (y 1).val = (y 1).val; show 0 * 256 + 1 * (y 1).val = (y 1).val; omega
  rw [hy, V_main_v7 m c]

theorem iblk11_eq (c : Dev nD) (t : Fin cfg0.N) : (iblk m c 11 t : S256.Idx → EReal) = (θ m c).b4 := by
  funext y
  show V m c main_arg10 (((cfg0.win 11).blk t).view.emb y) = _
  have hy : ((cfg0.win 11).blk t).view.emb y = y := by
    funext a; apply Fin.ext
    match a with
    | ⟨0, _⟩ => show win0_11.index t (0 : Fin 1) * 256 + 1 * (y 0).val = (y 0).val; show 0 * 256 + 1 * (y 0).val = (y 0).val; omega
  rw [hy, V_main_arg10 m c]
  rfl

theorem iblk12_eq (c : Dev nD) (t : Fin cfg0.N) : (iblk m c 12 t : S256x256.Idx → EReal) = (θ m c).W5 := by
  funext y
  show V m c main_v8 (((cfg0.win 12).blk t).view.emb y) = _
  have hy : ((cfg0.win 12).blk t).view.emb y = y := by
    funext a; apply Fin.ext
    match a with
    | ⟨0, _⟩ => show win0_12.index t (0 : Fin 2) * 256 + 1 * (y 0).val = (y 0).val; show 0 * 256 + 1 * (y 0).val = (y 0).val; omega
    | ⟨1, _⟩ => show win0_12.index t (1 : Fin 2) * 256 + 1 * (y 1).val = (y 1).val; show 0 * 256 + 1 * (y 1).val = (y 1).val; omega
  rw [hy, V_main_v8 m c]

theorem iblk13_eq (c : Dev nD) (t : Fin cfg0.N) : (iblk m c 13 t : S256.Idx → EReal) = (θ m c).b5 := by
  funext y
  show V m c main_arg12 (((cfg0.win 13).blk t).view.emb y) = _
  have hy : ((cfg0.win 13).blk t).view.emb y = y := by
    funext a; apply Fin.ext
    match a with
    | ⟨0, _⟩ => show win0_13.index t (0 : Fin 1) * 256 + 1 * (y 0).val = (y 0).val; show 0 * 256 + 1 * (y 0).val = (y 0).val; omega
  rw [hy, V_main_arg12 m c]
  rfl

theorem iblk14_eq (c : Dev nD) (t : Fin cfg0.N) : (iblk m c 14 t : S256x256.Idx → EReal) = (θ m c).W6 := by
  funext y
  show V m c main_v9 (((cfg0.win 14).blk t).view.emb y) = _
  have hy : ((cfg0.win 14).blk t).view.emb y = y := by
    funext a; apply Fin.ext
    match a with
    | ⟨0, _⟩ => show win0_14.index t (0 : Fin 2) * 256 + 1 * (y 0).val = (y 0).val; show 0 * 256 + 1 * (y 0).val = (y 0).val; omega
    | ⟨1, _⟩ => show win0_14.index t (1 : Fin 2) * 256 + 1 * (y 1).val = (y 1).val; show 0 * 256 + 1 * (y 1).val = (y 1).val; omega
  rw [hy, V_main_v9 m c]

theorem iblk15_eq (c : Dev nD) (t : Fin cfg0.N) : (iblk m c 15 t : S256.Idx → EReal) = (θ m c).b6 := by
  funext y
  show V m c main_arg14 (((cfg0.win 15).blk t).view.emb y) = _
  have hy : ((cfg0.win 15).blk t).view.emb y = y := by
    funext a; apply Fin.ext
    match a with
    | ⟨0, _⟩ => show win0_15.index t (0 : Fin 1) * 256 + 1 * (y 0).val = (y 0).val; show 0 * 256 + 1 * (y 0).val = (y 0).val; omega
  rw [hy, V_main_arg14 m c]
  rfl

theorem iblk16_eq (c : Dev nD) (t : Fin cfg0.N) : (iblk m c 16 t : S256x4.Idx → EReal) = (η m c).W7 := by
  funext y
  show V m c main_arg15 (((cfg0.win 16).blk t).view.emb y) = _
  have hy : ((cfg0.win 16).blk t).view.emb y = y := by
    funext a; apply Fin.ext
    match a with
    | ⟨0, _⟩ => show win0_16.index t (0 : Fin 2) * 256 + 1 * (y 0).val = (y 0).val; show 0 * 256 + 1 * (y 0).val = (y 0).val; omega
    | ⟨1, _⟩ => show win0_16.index t (1 : Fin 2) * 4 + 1 * (y 1).val = (y 1).val; show 0 * 4 + 1 * (y 1).val = (y 1).val; omega
  rw [hy, V_main_arg15 m c]
  rfl

theorem iblk17_eq (c : Dev nD) (t : Fin cfg0.N) : (iblk m c 17 t : S4.Idx → EReal) = (η m c).b7 := by
  funext y
  show V m c main_arg16 (((cfg0.win 17).blk t).view.emb y) = _
  have hy : ((cfg0.win 17).blk t).view.emb y = y := by
    funext a; apply Fin.ext
    match a with
    | ⟨0, _⟩ => show win0_17.index t (0 : Fin 1) * 4 + 1 * (y 0).val = (y 0).val; show 0 * 4 + 1 * (y 0).val = (y 0).val; omega
  rw [hy, V_main_arg16 m c]
  rfl

theorem iblk18_eq (c : Dev nD) (t : Fin cfg0.N) : (iblk m c 18 t : S256x64.Idx → EReal) = (η m c).nW0 := by
  funext y
  show V m c main_arg17 (((cfg0.win 18).blk t).view.emb y) = _
  have hy : ((cfg0.win 18).blk t).view.emb y = y := by
    funext a; apply Fin.ext
    match a with
    | ⟨0, _⟩ => show win0_18.index t (0 : Fin 2) * 256 + 1 * (y 0).val = (y 0).val; show 0 * 256 + 1 * (y 0).val = (y 0).val; omega
    | ⟨1, _⟩ => show win0_18.index t (1 : Fin 2) * 64 + 1 * (y 1).val = (y 1).val; show 0 * 64 + 1 * (y 1).val = (y 1).val; omega
  rw [hy, V_main_arg17 m c]
  rfl

theorem iblk19_eq (c : Dev nD) (t : Fin cfg0.N) : (iblk m c 19 t : S64.Idx → EReal) = (η m c).nb0 := by
  funext y
  show V m c main_arg18 (((cfg0.win 19).blk t).view.emb y) = _
  have hy : ((cfg0.win 19).blk t).view.emb y = y := by
    funext a; apply Fin.ext
    match a with
    | ⟨0, _⟩ => show win0_19.index t (0 : Fin 1) * 64 + 1 * (y 0).val = (y 0).val; show 0 * 64 + 1 * (y 0).val = (y 0).val; omega
  rw [hy, V_main_arg18 m c]
  rfl

theorem iblk20_eq (c : Dev nD) (t : Fin cfg0.N) : (iblk m c 20 t : S64x64.Idx → EReal) = (η m c).nW1 := by
  funext y
  show V m c main_arg19 (((cfg0.win 20).blk t).view.emb y) = _
  have hy : ((cfg0.win 20).blk t).view.emb y = y := by
    funext a; apply Fin.ext
    match a with
    | ⟨0, _⟩ => show win0_20.index t (0 : Fin 2) * 64 + 1 * (y 0).val = (y 0).val; show 0 * 64 + 1 * (y 0).val = (y 0).val; omega
    | ⟨1, _⟩ => show win0_20.index t (1 : Fin 2) * 64 + 1 * (y 1).val = (y 1).val; show 0 * 64 + 1 * (y 1).val = (y 1).val; omega
  rw [hy, V_main_arg19 m c]
  rfl

theorem iblk21_eq (c : Dev nD) (t : Fin cfg0.N) : (iblk m c 21 t : S64.Idx → EReal) = (η m c).nb1 := by
  funext y
  show V m c main_arg20 (((cfg0.win 21).blk t).view.emb y) = _
  have hy : ((cfg0.win 21).blk t).view.emb y = y := by
    funext a; apply Fin.ext
    match a with
    | ⟨0, _⟩ => show win0_21.index t (0 : Fin 1) * 64 + 1 * (y 0).val = (y 0).val; show 0 * 64 + 1 * (y 0).val = (y 0).val; omega
  rw [hy, V_main_arg20 m c]
  rfl

theorem iblk22_eq (c : Dev nD) (t : Fin cfg0.N) : (iblk m c 22 t : S64x3.Idx → EReal) = (η m c).nW2 := by
  funext y
  show V m c main_arg21 (((cfg0.win 22).blk t).view.emb y) = _
  have hy : ((cfg0.win 22).blk t).view.emb y = y := by
    funext a; apply Fin.ext
    match a with
    | ⟨0, _⟩ => show win0_22.index t (0 : Fin 2) * 64 + 1 * (y 0).val = (y 0).val; show 0 * 64 + 1 * (y 0).val = (y 0).val; omega
    | ⟨1, _⟩ => show win0_22.index t (1 : Fin 2) * 3 + 1 * (y 1).val = (y 1).val; show 0 * 3 + 1 * (y 1).val = (y 1).val; omega
  rw [hy, V_main_arg21 m c]
  rfl

theorem iblk23_eq (c : Dev nD) (t : Fin cfg0.N) : (iblk m c 23 t : S3.Idx → EReal) = (η m c).nb2 := by
  funext y
  show V m c main_arg22 (((cfg0.win 23).blk t).view.emb y) = _
  have hy : ((cfg0.win 23).blk t).view.emb y = y := by
    funext a; apply Fin.ext
    match a with
    | ⟨0, _⟩ => show win0_23.index t (0 : Fin 1) * 3 + 1 * (y 0).val = (y 0).val; show 0 * 3 + 1 * (y 0).val = (y 0).val; omega
  rw [hy, V_main_arg22 m c]
  rfl

/-! ## The arguments end unchanged -/

set_option maxHeartbeats 1500000 in
theorem kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22) :=
  ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).1 4).trans (((dats m 0 c).arrAt_in 4 rfl _).trans ((A_eq m c 4).trans (V_main_arg4 m c))),
    ((h c).2 main_arg5 (Pipeline.mem_restRefs_of main_arg5 (by decide) (by decide))).trans (W_main_arg5 m (dats m) c),
    ((h c).1 6).trans (((dats m 0 c).arrAt_in 6 rfl _).trans ((A_eq m c 6).trans (V_main_arg6 m c))),
    ((h c).2 main_arg7 (Pipeline.mem_restRefs_of main_arg7 (by decide) (by decide))).trans (W_main_arg7 m (dats m) c),
    ((h c).1 8).trans (((dats m 0 c).arrAt_in 8 rfl _).trans ((A_eq m c 8).trans (V_main_arg8 m c))),
    ((h c).2 main_arg9 (Pipeline.mem_restRefs_of main_arg9 (by decide) (by decide))).trans (W_main_arg9 m (dats m) c),
    ((h c).1 11).trans (((dats m 0 c).arrAt_in 11 rfl _).trans ((A_eq m c 11).trans (V_main_arg10 m c))),
    ((h c).2 main_arg11 (Pipeline.mem_restRefs_of main_arg11 (by decide) (by decide))).trans (W_main_arg11 m (dats m) c),
    ((h c).1 13).trans (((dats m 0 c).arrAt_in 13 rfl _).trans ((A_eq m c 13).trans (V_main_arg12 m c))),
    ((h c).2 main_arg13 (Pipeline.mem_restRefs_of main_arg13 (by decide) (by decide))).trans (W_main_arg13 m (dats m) c),
    ((h c).1 15).trans (((dats m 0 c).arrAt_in 15 rfl _).trans ((A_eq m c 15).trans (V_main_arg14 m c))),
    ((h c).1 16).trans (((dats m 0 c).arrAt_in 16 rfl _).trans ((A_eq m c 16).trans (V_main_arg15 m c))),
    ((h c).1 17).trans (((dats m 0 c).arrAt_in 17 rfl _).trans ((A_eq m c 17).trans (V_main_arg16 m c))),
    ((h c).1 18).trans (((dats m 0 c).arrAt_in 18 rfl _).trans ((A_eq m c 18).trans (V_main_arg17 m c))),
    ((h c).1 19).trans (((dats m 0 c).arrAt_in 19 rfl _).trans ((A_eq m c 19).trans (V_main_arg18 m c))),
    ((h c).1 20).trans (((dats m 0 c).arrAt_in 20 rfl _).trans ((A_eq m c 20).trans (V_main_arg19 m c))),
    ((h c).1 21).trans (((dats m 0 c).arrAt_in 21 rfl _).trans ((A_eq m c 21).trans (V_main_arg20 m c))),
    ((h c).1 22).trans (((dats m 0 c).arrAt_in 22 rfl _).trans ((A_eq m c 22).trans (V_main_arg21 m c))),
    ((h c).1 23).trans (((dats m 0 c).arrAt_in 23 rfl _).trans ((A_eq m c 23).trans (V_main_arg22 m c)))⟩

end Cert.KernelBlocks

end
-- ==== Proof.KernelBlocks.lean ====
/-
  The kernel's run at the ideal values, read as values: the three results are the three heads of the row-wise network of
  RowNet on all 262144 rows of the input.

  At grid point t the body's inputs are rows 4096 t .. 4096 t + 4095 of the input (window 0) and every weight and bias
  whole (windows 1 to 23), and it writes back the block it stored into window 24. That block is the network of the staged
  rows, which is the staged rows of the network of the whole input; so every point writes back a block of ONE function of
  the launch memory. The 64 blocks cover the [262144, 8] array (row r is in the block of point r / 4096), which
  therefore ends at that function. The three host slices after the region read its column 0, its columns 1..3 and its
  columns 4..6: the three heads.
-/
import proofs.«110630_j78632261256031_2_alg».proof.Proof.BlockReads

set_option maxRecDepth 16384

noncomputable section

namespace Cert.KernelBlocks

open Cert.KernelIdeal Cert.KernelIdeal.Gen Idealize.ShloMosaic Idealize.ShloMosaic.TcCoe Idealize.SL.Sem
  Idealize.ShloMosaic.ValueIdx Cert.Lib.RowLayers Cert.RowNet
open Idealize.ShloMosaic.Pipeline (Dat Cfg Window)

variable (m : (ℓ : Loc nD τ sig) → Buf (Elt Ideal) ℓ) (ρ : Dev nD → PrngReg)

/-! ## What a point writes back, the cover, the final array -/

/-- Point t writes back block t of the network of the whole input. -/
theorem flushed_eq (c : Dev nD) (t : Fin cfg0.N) :
    (dats m 0 c).flushed 24 t = ((cfg0.win 24).blk t).view.read (Elt Ideal) (G m c) := by
  show (cfg0.win 24).cut (grid0.coords t) ((dats m 0 c).after 24 t) = _
  rw [after0_24]
  unfold out0_24
  rw [View.canon_unit_zero hz2]
  simp only [View.ld_unit_zero (S := S4096x63) hz2, View.ld_unit_zero (S := S63x256) hz2, View.ld_unit_zero (S := S256) hz1,
    View.ld_unit_zero (S := S256x256) hz2, View.ld_unit_zero (S := S256x4) hz2, View.ld_unit_zero (S := S4) hz1,
    View.ld_unit_zero (S := S256x64) hz2, View.ld_unit_zero (S := S64) hz1, View.ld_unit_zero (S := S64x64) hz2,
    View.ld_unit_zero (S := S64x3) hz2, View.ld_unit_zero (S := S3) hz1]
  rw [iblk0_eq m c t, iblk1_eq m c t, iblk2_eq m c t, iblk3_eq m c t, iblk4_eq m c t, iblk5_eq m c t, iblk6_eq m c t,
    iblk7_eq m c t, iblk8_eq m c t, iblk9_eq m c t, iblk10_eq m c t, iblk11_eq m c t, iblk12_eq m c t, iblk13_eq m c t,
    iblk14_eq m c t, iblk15_eq m c t, iblk16_eq m c t, iblk17_eq m c t, iblk18_eq m c t, iblk19_eq m c t, iblk20_eq m c t,
    iblk21_eq m c t, iblk22_eq m c t, iblk23_eq m c t]
  rw [Cert.KernelValue.body_eq (θ m c) (η m c) _ slices_S319x256_S63x256_0_0 slices_S319x256_S256x256_63_0, net8_rows]
  obtain ⟨-, -, e2, e3⟩ := idx_facts t
  funext y
  show G m c (ix2 (blockRow t.val (hN ▸ t.isLt) (y 0)) (y 1)) = G m c (((cfg0.win 24).blk t).view.emb y)
  refine congrArg (G m c) (funext fun a => Fin.ext ?_)
  match a with
  | ⟨0, _⟩ => show t.val * 4096 + (y 0).val = win0_24.index t (0 : Fin 2) * 4096 + 1 * (y 0).val; rw [e2]; omega
  | ⟨1, _⟩ => show (y 1).val = win0_24.index t (1 : Fin 2) * 8 + 1 * (y 1).val; rw [e3]; omega

/-- An index of the array is in point t's block iff each coordinate is in the block's range on its axis. -/
theorem mem_blk (t : Fin cfg0.N) (i : S262144x8.Idx) :
    i ∈ ((cfg0.win 24).blk t).view.set ↔ ∀ a : Fin 2, win0_24.index t a * S4096x8.size a ≤ (i a).val
      ∧ (i a).val < win0_24.index t a * S4096x8.size a + S4096x8.size a := by
  show i ∈ ((View.whole main_v10).slice (win0_24.rect t)).set ↔ _
  rw [View.set_slice_whole, Rect.mem_set_unit]
  exact Iff.rfl

/-- Row r of the array is in the block of point r / 4096. -/
theorem cover (i : S262144x8.Idx) :
    ∃ t : Fin cfg0.N, (cfg0.win 24).flush t = true ∧ i ∈ ((cfg0.win 24).blk t).view.set := by
  have hi0 : (i 0).val < 262144 := (i 0).isLt
  have hi1 : (i 1).val < 8 := (i 1).isLt
  have hk : (i 0).val / 4096 < cfg0.N := by rw [hN]; omega
  obtain ⟨-, -, e2, e3⟩ := idx_facts ⟨(i 0).val / 4096, hk⟩
  have e2' : win0_24.index ⟨(i 0).val / 4096, hk⟩ (0 : Fin 2) = (i 0).val / 4096 := e2
  refine ⟨⟨(i 0).val / 4096, hk⟩, flush0_24 _, ?_⟩
  rw [mem_blk]
  intro a
  match a with
  | ⟨0, _⟩ =>
    show win0_24.index ⟨(i 0).val / 4096, hk⟩ (0 : Fin 2) * 4096 ≤ (i 0).val
      ∧ (i 0).val < win0_24.index ⟨(i 0).val / 4096, hk⟩ (0 : Fin 2) * 4096 + 4096
    rw [e2']; omega
  | ⟨1, _⟩ =>
    show win0_24.index ⟨(i 0).val / 4096, hk⟩ (1 : Fin 2) * 8 ≤ (i 1).val
      ∧ (i 1).val < win0_24.index ⟨(i 0).val / 4096, hk⟩ (1 : Fin 2) * 8 + 8
    rw [e3]; omega

/-- The output array after the run is the network of the whole input. -/
theorem final (c : Dev nD) : (dats m 0 c).arrAt 24 cfg0.N = G m c :=
  (dats m 0 c).arrAt_eq_of_cover 24 (G m c) (fun t _ => flushed_eq m c t) cover

/-! ## The three slices after the region -/

theorem tail_v11 (c : Dev nD) :
    Pipeline.afterTail₀ cfgs (dats m) 0 (V0 m) [hostOps1] c main_v11
      = density 262144 (geo 262144 (θ m c) (m ((c.tc : Thread nD τ).loc main_arg0))) (η m c).W7 (η m c).b7 := by
  unfold Pipeline.afterTail₀
  show StableHlo.after hostOps1 _ (Proc.devRef .tc main_v11) = _
  after_results
  rw [(Pipeline.withArrays_arr spec0 launch0.win.arr_inj c _ _ 24).trans (final m c),
    cols_eq 262144 8 0 1 (by decide) (G m c) slices_S262144x8_S262144x1_0_0]
  exact cols_packed_0 262144 _ _ _

theorem tail_v12 (c : Dev nD) :
    Pipeline.afterTail₀ cfgs (dats m) 0 (V0 m) [hostOps1] c main_v12
      = rgb 262144 (geo 262144 (θ m c) (m ((c.tc : Thread nD τ).loc main_arg0))) (η m c).W7 (η m c).b7 := by
  unfold Pipeline.afterTail₀
  show StableHlo.after hostOps1 _ (Proc.devRef .tc main_v12) = _
  after_results
  rw [(Pipeline.withArrays_arr spec0 launch0.win.arr_inj c _ _ 24).trans (final m c),
    cols_eq 262144 8 1 3 (by decide) (G m c) slices_S262144x8_S262144x3_0_1]
  exact cols_packed_1 262144 _ _ _

theorem tail_v13 (c : Dev nD) :
    Pipeline.afterTail₀ cfgs (dats m) 0 (V0 m) [hostOps1] c main_v13
      = normal 262144 (geo 262144 (θ m c) (m ((c.tc : Thread nD τ).loc main_arg0))) (η m c).nW0 (η m c).nb0 (η m c).nW1
          (η m c).nb1 (η m c).nW2 (η m c).nb2 := by
  unfold Pipeline.afterTail₀
  show StableHlo.after hostOps1 _ (Proc.devRef .tc main_v13) = _
  after_results
  rw [(Pipeline.withArrays_arr spec0 launch0.win.arr_inj c _ _ 24).trans (final m c),
    cols_eq 262144 8 4 3 (by decide) (G m c) slices_S262144x8_S262144x3_0_4]
  exact cols_packed_4 262144 _ _ _

/-! ## The run, read -/

/-- Every weakly fair execution of the kernel's program terminates with the three results at the three heads of the
    network of the launch memory, and the arguments unchanged. -/
theorem run : θ_run defs (onTc (τ := τ) (main (F := Ideal))) ⟨m, fun _ => 0, ρ⟩ fun r => ∀ c : Dev nD,
      (r.2.mem ((c.tc : Thread nD τ).loc main_v11)
          = density 262144 (geo 262144 (θ m c) (m ((c.tc : Thread nD τ).loc main_arg0))) (η m c).W7 (η m c).b7
        ∧ r.2.mem ((c.tc : Thread nD τ).loc main_v12)
          = rgb 262144 (geo 262144 (θ m c) (m ((c.tc : Thread nD τ).loc main_arg0))) (η m c).W7 (η m c).b7
        ∧ r.2.mem ((c.tc : Thread nD τ).loc main_v13)
          = normal 262144 (geo 262144 (θ m c) (m ((c.tc : Thread nD τ).loc main_arg0))) (η m c).nW0 (η m c).nb0 (η m c).nW1
              (η m c).nb1 (η m c).nW2 (η m c).nb2)
      ∧ Pipeline.FramePost cfgs (dats m) 0 (Pipeline.afterTail₀ cfgs (dats m) 0 (V0 m) [hostOps1]) r :=
  (θ_run defs _ _).mono (fun r h c =>
    ⟨⟨((h c).2 main_v11 (Pipeline.mem_restRefs_of main_v11 (by decide) (by decide))).trans (tail_v11 m c),
      ((h c).2 main_v12 (Pipeline.mem_restRefs_of main_v12 (by decide) (by decide))).trans (tail_v12 m c),
      ((h c).2 main_v13 (Pipeline.mem_restRefs_of main_v13 (by decide) (by decide))).trans (tail_v13 m c)⟩, h⟩)
    (run_main m ρ)

end Cert.KernelBlocks

end
-- ==== Proof.LibEdgeReads.lean ====
/-
  HOST LAYOUT OPERATIONS OF A PER-ROW COMPUTATION, READ AT AN INDEX, over arbitrary extents (nothing here mentions a
  program):

  * an `[a]` vector made an `[a, 1]` column by `broadcast_in_dim` along axis 0 reads, at `(e, u)`, the vector at `e`;
  * an `[a, 1]` column broadcast to `[a, b]` by `broadcast_in_dim` along axes 0 and 1 reads, at `(e, c)`, the column at
    `(e, 0)`;
  * column `k` of an `[a, b]` matrix, sliced out as `[a, 1]` and cast to `[a]`, reads, at `e`, the matrix at `(e, k)`;
  * the host's float sum over the second axis of an `[n, 3]` matrix reads, at `e`, the initial value plus the three
    entries of row `e`, added left to right.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.EdgeReads

open Idealize.ShloMosaic Idealize.ShloMosaic.ValueIdx

variable {α : Type}

/-- A vector made a column: at `(e, u)` the vector at `e`. -/
theorem column_of_vector_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply _ h x _ _ fun d => by
    match d with
    | ⟨0, _⟩ =>
      show e.val = if a = 1 then 0 else e.val
      split
      · have := e.isLt; omega
      · rfl

/-- A column broadcast along the rows: at `(e, c)` the column at `(e, 0)`. -/
theorem column_broadcast_apply {a b : ℕ} (x : (⟨2, ![a, 1]⟩ : Shape).Idx → α)
    (h : (⟨2, ![a, 1]⟩ : Shape).BroadcastsInDim ⟨2, ![a, b]⟩ ![0, 1]) (e : Fin a) (c : Fin b) :
    broadcastInDim ⟨2, ![a, b]⟩ ![0, 1] h x (ix2 e c) = x (ix2 e (0 : Fin 1)) :=
  broadcastInDim_apply _ h x _ _ fun d => by
    match d with
    | ⟨0, _⟩ =>
      show e.val = if a = 1 then 0 else e.val
      split
      · have := e.isLt; omega
      · rfl
    | ⟨1, _⟩ =>
      show (0 : ℕ) = if (1 : ℕ) = 1 then 0 else c.val
      rw [if_pos rfl]

/-- Column `k` of a matrix as a vector: at `e` the matrix at `(e, k)`. -/
theorem column_slice_apply {a b : ℕ} (k : ℕ) (hk : k < b) (X : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (e : Fin a) :
    shapeCast ⟨1, ![a]⟩ (extractStridedSlice ⟨2, ![a, 1]⟩ ![0, k] X hs) hc (ix1 e) = X (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply _ X hs _ _ fun d => ?_
    match d with
    | ⟨0, _⟩ => show e.val = 0 + e.val; omega
    | ⟨1, _⟩ => show k = k + 0; omega

/-- The host's sum of each row of an `[n, 3]` matrix: at `e` the initial value plus the row's three entries. -/
theorem hostReduceAdd_rows3_apply {n : ℕ} {u : Shape} (x : FVec Ideal ⟨2, ![n, 3]⟩ .f32) (init : u.Idx → Ideal .f32)
    (h' : (⟨2, ![n, 3]⟩ : Shape).ReducesTo [1] ⟨1, ![n]⟩) (h : (⟨2, ![n, 3]⟩ : Shape).Reduces [1] ⟨1, ![n]⟩)
    (hu : 0 < u.numel) (e : Fin n) :
    Host.reduceAdd x init h' hu (ix1 e)
      = init (Shape.Idx.first hu) + (x (ix2 e 0) + x (ix2 e 1) + x (ix2 e 2)) := by
  rw [hostReduceAdd_apply, Ideal.hostReduceAdd_single h' h]
  have hl : ∀ k : Fin 3, h.lift (ix1 e) k = ix2 e k := fun k => by
    funext d; refine Fin.ext ?_
    match d with
    | ⟨0, _⟩ => rfl
    | ⟨1, _⟩ => rfl
  show init (Shape.Idx.first hu) + ∑ k : Fin 3, x (h.lift (ix1 e) k) = _
  rw [Fin.sum_univ_three, hl 0, hl 1, hl 2]

end Cert.Lib.EdgeReads

end
-- ==== Proof.LibMlpHostSpell.lean ====
/-
  The host's spellings of the row-wise network's layers, as whole arrays over an arbitrary number of rows and at the
  ideal values: each combination of host operations is the layer of LibMlpLayers it computes.

    an affine map   a dot_general plus the bias broadcast first to a [1, N] row and then down the rows;
    softplus        a select on 'd is not equal to itself' (never, for an extended real) between x + 0 and
                    max x 0 + log1p (exp (-|x - 0|)): the second is taken;
    the colour      1 / (1 + exp (-x)) spelt out with a broadcast one, which is the logistic function, times a broadcast
                    float minus a broadcast float;
    the normal head the row's sum of squares as a reduce from the zero word (zero plus the three squares), made a column,
                    its square root, the maximum with a broadcast float, the column broadcast along the row, the quotient.
-/
import Idealize.ShloMosaic.Lib.IdealHost
import proofs.«110630_j78632261256031_2_alg».proof.Proof.LibMlpLayers
import proofs.«110630_j78632261256031_2_alg».proof.Proof.LibMlpKernelSpell
import proofs.«110630_j78632261256031_2_alg».proof.Proof.LibEdgeReads

noncomputable section

namespace Cert.RowNet.Host

open Idealize.ShloMosaic Idealize.ShloMosaic.ValueIdx Cert.Lib.RowLayers

theorem affine_eq (n K N : ℕ) (X : FVec Ideal ⟨2, ![n, K]⟩ .f32) (W : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![n, N]⟩ ![0, 1]) :
    addf (Host.dotGeneral (DotDims.plain n K N) none X W)
        (broadcastInDim ⟨2, ![n, N]⟩ ![0, 1] h2 (broadcastInDim ⟨2, ![1, N]⟩ ![1] h1 b))
      = affine n K N X W b := by
  funext i
  obtain ⟨p, q, rfl⟩ : ∃ (p : Fin n) (q : Fin N), i = ix2 p q := ⟨i 0, i 1, eq_ix2 i⟩
  show FloatOps.dotGeneral (DotDims.plain n K N) none .single X W (ix2 p q)
      + broadcastInDim ⟨2, ![n, N]⟩ ![0, 1] h2 (broadcastInDim ⟨2, ![1, N]⟩ ![1] h1 b) (ix2 p q)
    = (∑ k : Fin K, X (ix2 p k) * W (ix2 k q)) + b (ix1 q)
  rw [dotGeneral_ix2, host_bias]

theorem softplus_pt (x z : EReal) (hz : z = Ideal.ofBits .f32 0x00000000#32) :
    Scalar.select (Ideal.cmp .une (x - z) (x - z)) (x + z)
        (max x z + Ideal.log1p (Ideal.exp (-(FloatOps.absf (F := Ideal) (φ := .f32) (x - z)))))
      = max x (Ideal.ofBits .f32 0x00000000#32)
        + Ideal.log1p (Ideal.exp (-(FloatOps.absf (F := Ideal) (φ := .f32) (x - Ideal.ofBits .f32 0x00000000#32)))) := by
  subst hz
  rw [cmp_self_une, select_zero]

theorem softplus_eq (s : Shape) (x : FVec Ideal s .f32) (h : (⟨0, ![]⟩ : Shape).BroadcastsInDim s ![]) :
    select (cmpf .une (subf x (broadcastInDim s ![] h (constant (F := Ideal) ⟨0, ![]⟩ .f32 0x00000000#32)))
          (subf x (broadcastInDim s ![] h (constant (F := Ideal) ⟨0, ![]⟩ .f32 0x00000000#32))))
        (addf x (broadcastInDim s ![] h (constant (F := Ideal) ⟨0, ![]⟩ .f32 0x00000000#32)))
        (addf (maximumf x (broadcastInDim s ![] h (constant (F := Ideal) ⟨0, ![]⟩ .f32 0x00000000#32)))
          (Host.log1p (Host.exp (Host.negf (Host.absf
            (subf x (broadcastInDim s ![] h (constant (F := Ideal) ⟨0, ![]⟩ .f32 0x00000000#32))))))))
      = softplus s x :=
  funext fun i => softplus_pt (x i) _ (host_splat s _ h i)

theorem colour_pt (x o c1 c2 : EReal) (ho : o = Ideal.ofBits .f32 0x3F800000#32)
    (h1 : c1 = Ideal.ofBits .f32 0x3F804189#32) (h2 : c2 = Ideal.ofBits .f32 0x3A83126F#32) :
    Ideal.div o (o + Ideal.exp (-x)) * c1 - c2
      = Ideal.logistic x * Ideal.ofBits .f32 0x3F804189#32 - Ideal.ofBits .f32 0x3A83126F#32 := by
  subst ho h1 h2
  rw [Ideal.ofBits_one_f32]
  rfl

theorem colour_eq (s : Shape) (x : FVec Ideal s .f32) (h : (⟨0, ![]⟩ : Shape).BroadcastsInDim s ![]) :
    subf (mulf (Host.divf (broadcastInDim s ![] h (constant (F := Ideal) ⟨0, ![]⟩ .f32 0x3F800000#32))
          (addf (broadcastInDim s ![] h (constant (F := Ideal) ⟨0, ![]⟩ .f32 0x3F800000#32)) (Host.exp (Host.negf x))))
        (broadcastInDim s ![] h (constant (F := Ideal) ⟨0, ![]⟩ .f32 0x3F804189#32)))
      (broadcastInDim s ![] h (constant (F := Ideal) ⟨0, ![]⟩ .f32 0x3A83126F#32))
      = colour s x :=
  funext fun i => colour_pt (x i) _ _ _ (host_splat s _ h i) (host_splat s _ h i) (host_splat s _ h i)

theorem tanh_eq (s : Shape) (x : FVec Ideal s .f32) : Host.tanh x = tanhA s x := rfl

theorem normalize_eq (n : ℕ) (T : FVec Ideal ⟨2, ![n, 3]⟩ .f32)
    (h' : (⟨2, ![n, 3]⟩ : Shape).ReducesTo [1] ⟨1, ![n]⟩) (hR : (⟨2, ![n, 3]⟩ : Shape).Reduces [1] ⟨1, ![n]⟩)
    (hu : 0 < (⟨0, ![]⟩ : Shape).numel)
    (hc : (⟨1, ![n]⟩ : Shape).BroadcastsInDim ⟨2, ![n, 1]⟩ ![0])
    (hb : (⟨2, ![n, 1]⟩ : Shape).BroadcastsInDim ⟨2, ![n, 3]⟩ ![0, 1])
    (he : (⟨0, ![]⟩ : Shape).BroadcastsInDim ⟨2, ![n, 1]⟩ ![]) :
    Host.divf T (broadcastInDim ⟨2, ![n, 3]⟩ ![0, 1] hb
        (maximumf (Host.sqrt (broadcastInDim ⟨2, ![n, 1]⟩ ![0] hc
            (Host.reduceAdd (mulf T T) (constant (F := Ideal) ⟨0, ![]⟩ .f32 0x00000000#32) h' hu)))
          (broadcastInDim ⟨2, ![n, 1]⟩ ![] he (constant (F := Ideal) ⟨0, ![]⟩ .f32 0x2B8CBCCC#32))))
      = normalize n T := by
  funext i
  obtain ⟨p, q, rfl⟩ : ∃ (p : Fin n) (q : Fin 3), i = ix2 p q := ⟨i 0, i 1, eq_ix2 i⟩
  have e1 : Host.reduceAdd (mulf T T) (constant (F := Ideal) ⟨0, ![]⟩ .f32 0x00000000#32) h' hu (ix1 p)
      = T (ix2 p 0) * T (ix2 p 0) + T (ix2 p 1) * T (ix2 p 1) + T (ix2 p 2) * T (ix2 p 2) := by
    refine (Cert.Lib.EdgeReads.hostReduceAdd_rows3_apply (mulf T T) _ h' hR hu p).trans ?_
    show Ideal.ofBits .f32 0x00000000#32 + (T (ix2 p 0) * T (ix2 p 0) + T (ix2 p 1) * T (ix2 p 1) + T (ix2 p 2) * T (ix2 p 2)) = _
    rw [Ideal.ofBits_zero_f32, zero_add]
  show Ideal.div (T (ix2 p q)) (broadcastInDim ⟨2, ![n, 3]⟩ ![0, 1] hb
      (maximumf (Host.sqrt (broadcastInDim ⟨2, ![n, 1]⟩ ![0] hc
          (Host.reduceAdd (mulf T T) (constant (F := Ideal) ⟨0, ![]⟩ .f32 0x00000000#32) h' hu)))
        (broadcastInDim ⟨2, ![n, 1]⟩ ![] he (constant (F := Ideal) ⟨0, ![]⟩ .f32 0x2B8CBCCC#32))) (ix2 p q)) = _
  rw [Cert.Lib.EdgeReads.column_broadcast_apply]
  show Ideal.div (T (ix2 p q)) (max (Ideal.sqrt (broadcastInDim ⟨2, ![n, 1]⟩ ![0] hc
      (Host.reduceAdd (mulf T T) (constant (F := Ideal) ⟨0, ![]⟩ .f32 0x00000000#32) h' hu) (ix2 p (0 : Fin 1))))
      (broadcastInDim ⟨2, ![n, 1]⟩ ![] he (constant (F := Ideal) ⟨0, ![]⟩ .f32 0x2B8CBCCC#32) (ix2 p (0 : Fin 1)))) = _
  rw [Cert.Lib.EdgeReads.column_of_vector_apply, e1, host_splat]
  rfl

end Cert.RowNet.Host

end
-- ==== Proof.RefBasics.lean ====
/-
  The reference's layers as the host spells them, for any record with the plain dimension numbers; and that the seven
  records the reference prints are those.

  A hidden layer on the host is five operations: the product, the bias broadcast first to a [1, M] row and then down the
  rows, their sum, and the maximum with a broadcast zero. The product's record is printed per shape; its numbers are the
  plain M x K by K x N ones, so the product read at an entry is the sum over k of left (row, k) times right (k, column).
-/
import proofs.«110630_j78632261256031_2_alg».proof.Proof.Gen.ReferenceIdeal.Read
import proofs.«110630_j78632261256031_2_alg».proof.Proof.RowNet
import proofs.«110630_j78632261256031_2_alg».proof.Proof.LibMlpHostSpell

noncomputable section

namespace Cert.RowNet.Host

open Idealize.ShloMosaic Idealize.ShloMosaic.ValueIdx Cert.Lib.RowLayers

/-- A hidden layer as the host spells it, for any record with the plain dimension numbers. -/
theorem hidden_eq (n K M : ℕ) (d : DotDims ⟨2, ![n, K]⟩ ⟨2, ![K, M]⟩ ⟨2, ![n, M]⟩) (hd : d = DotDims.plain n K M)
    (X : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1])
    (h0 : (⟨0, ![]⟩ : Shape).BroadcastsInDim ⟨2, ![n, M]⟩ ![]) :
    maximumf (addf (Host.dotGeneral d none X W)
        (broadcastInDim ⟨2, ![n, M]⟩ ![0, 1] h2 (broadcastInDim ⟨2, ![1, M]⟩ ![1] h1 b)))
      (broadcastInDim ⟨2, ![n, M]⟩ ![] h0 (constant (F := Ideal) ⟨0, ![]⟩ .f32 0x00000000#32))
      = relu _ (affine n K M X W b) := by
  subst hd
  exact (host_relu _ _ h0).trans (congrArg (relu _) (affine_eq n K M X W b h1 h2))

/-- An affine map as the host spells it, for any record with the plain dimension numbers. -/
theorem affine_eq' (n K M : ℕ) (d : DotDims ⟨2, ![n, K]⟩ ⟨2, ![K, M]⟩ ⟨2, ![n, M]⟩) (hd : d = DotDims.plain n K M)
    (X : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![n, M]⟩ ![0, 1]) :
    addf (Host.dotGeneral d none X W) (broadcastInDim ⟨2, ![n, M]⟩ ![0, 1] h2 (broadcastInDim ⟨2, ![1, M]⟩ ![1] h1 b))
      = affine n K M X W b := by
  subst hd
  exact affine_eq n K M X W b h1 h2

end Cert.RowNet.Host

namespace Cert.RefValue

open Cert.ReferenceIdeal Idealize.ShloMosaic

theorem dot_63_256 : dot_S262144x63_S63x256_S262144x256_1_0_0_1_n_n = DotDims.plain 262144 63 256 := rfl
theorem dot_256_256 : dot_S262144x256_S256x256_S262144x256_1_0_0_1_n_n = DotDims.plain 262144 256 256 := rfl
theorem dot_319_256 : dot_S262144x319_S319x256_S262144x256_1_0_0_1_n_n = DotDims.plain 262144 319 256 := rfl
theorem dot_256_4 : dot_S262144x256_S256x4_S262144x4_1_0_0_1_n_n = DotDims.plain 262144 256 4 := rfl
theorem dot_256_64 : dot_S262144x256_S256x64_S262144x64_1_0_0_1_n_n = DotDims.plain 262144 256 64 := rfl
theorem dot_64_64 : dot_S262144x64_S64x64_S262144x64_1_0_0_1_n_n = DotDims.plain 262144 64 64 := rfl
theorem dot_64_3 : dot_S262144x64_S64x3_S262144x3_1_0_0_1_n_n = DotDims.plain 262144 64 3 := rfl

end Cert.RefValue

end
-- ==== Proof.RefLayers.lean ====
/-
  A table: eight hidden layers of the reference, each the same five stages (the product, the bias broadcast in two
  steps, their sum, the maximum with a broadcast zero) over the previous layer's stage, and each the same layer of the
  network by the one lemma RefBasics proves for that combination. The skip layer, the heads and the results are in
  RefValue.
-/
import proofs.«110630_j78632261256031_2_alg».proof.Proof.RefBasics

noncomputable section

namespace Cert.RefValue

open Cert.ReferenceIdeal Cert.ReferenceIdeal.Read Idealize.ShloMosaic Idealize.ShloMosaic.ValueIdx Cert.Lib.RowLayers
  Cert.RowNet

variable (x0 : Mat 262144 63) (x1 : Mat 63 256) (x2 : Vec1 256) (x3 : Mat 256 256) (x4 : Vec1 256) (x5 : Mat 256 256)
  (x6 : Vec1 256) (x7 : Mat 256 256) (x8 : Vec1 256) (x9 : Mat 319 256) (x10 : Vec1 256) (x11 : Mat 256 256) (x12 : Vec1 256)
  (x13 : Mat 256 256) (x14 : Vec1 256) (x15 : Mat 256 4) (x16 : Vec1 4) (x17 : Mat 256 64) (x18 : Vec1 64) (x19 : Mat 64 64)
  (x20 : Vec1 64) (x21 : Mat 64 3) (x22 : Vec1 3)

theorem layer0 : val_main_v4 (F := Ideal) x0 x1 x2 = relu _ (affine 262144 63 256 (x0) x1 x2) := by
  unfold val_main_v4 val_main_v3 val_main_v0 val_main_v2 val_main_v1 val_main_call0_v0 val_main_call0_cst
  exact Host.hidden_eq 262144 63 256 _ dot_63_256 _ _ _ _ _ _

theorem layer1 : val_main_v9 (F := Ideal) x0 x1 x2 x3 x4 = relu _ (affine 262144 256 256 (val_main_v4 (F := Ideal) x0 x1 x2) x3 x4) := by
  unfold val_main_v9 val_main_v8 val_main_v5 val_main_v7 val_main_v6 val_main_call1_v0 val_main_call1_cst
  exact Host.hidden_eq 262144 256 256 _ dot_256_256 _ _ _ _ _ _

theorem layer2 : val_main_v14 (F := Ideal) x0 x1 x2 x3 x4 x5 x6 = relu _ (affine 262144 256 256 (val_main_v9 (F := Ideal) x0 x1 x2 x3 x4) x5 x6) := by
  unfold val_main_v14 val_main_v13 val_main_v10 val_main_v12 val_main_v11 val_main_call2_v0 val_main_call2_cst
  exact Host.hidden_eq 262144 256 256 _ dot_256_256 _ _ _ _ _ _

theorem layer3 : val_main_v19 (F := Ideal) x0 x1 x2 x3 x4 x5 x6 x7 x8 = relu _ (affine 262144 256 256 (val_main_v14 (F := Ideal) x0 x1 x2 x3 x4 x5 x6) x7 x8) := by
  unfold val_main_v19 val_main_v18 val_main_v15 val_main_v17 val_main_v16 val_main_call3_v0 val_main_call3_cst
  exact Host.hidden_eq 262144 256 256 _ dot_256_256 _ _ _ _ _ _

theorem layer5 : val_main_v30 (F := Ideal) x0 x1 x2 x3 x4 x5 x6 x7 x8 x9 x10 x11 x12 = relu _ (affine 262144 256 256 (val_main_v25 (F := Ideal) x0 x1 x2 x3 x4 x5 x6 x7 x8 x9 x10) x11 x12) := by
  unfold val_main_v30 val_main_v29 val_main_v26 val_main_v28 val_main_v27 val_main_call5_v0 val_main_call5_cst
  exact Host.hidden_eq 262144 256 256 _ dot_256_256 _ _ _ _ _ _

theorem layer6 : val_main_v35 (F := Ideal) x0 x1 x2 x3 x4 x5 x6 x7 x8 x9 x10 x11 x12 x13 x14 = relu _ (affine 262144 256 256 (val_main_v30 (F := Ideal) x0 x1 x2 x3 x4 x5 x6 x7 x8 x9 x10 x11 x12) x13 x14) := by
  unfold val_main_v35 val_main_v34 val_main_v31 val_main_v33 val_main_v32 val_main_call6_v0 val_main_call6_cst
  exact Host.hidden_eq 262144 256 256 _ dot_256_256 _ _ _ _ _ _

theorem nlayer0 : val_main_v57 (F := Ideal) x0 x1 x2 x3 x4 x5 x6 x7 x8 x9 x10 x11 x12 x13 x14 x17 x18 = relu _ (affine 262144 256 64 (val_main_v35 (F := Ideal) x0 x1 x2 x3 x4 x5 x6 x7 x8 x9 x10 x11 x12 x13 x14) x17 x18) := by
  unfold val_main_v57 val_main_v56 val_main_v53 val_main_v55 val_main_v54 val_main_call8_v0 val_main_call8_cst
  exact Host.hidden_eq 262144 256 64 _ dot_256_64 _ _ _ _ _ _

theorem nlayer1 : val_main_v62 (F := Ideal) x0 x1 x2 x3 x4 x5 x6 x7 x8 x9 x10 x11 x12 x13 x14 x17 x18 x19 x20 = relu _ (affine 262144 64 64 (val_main_v57 (F := Ideal) x0 x1 x2 x3 x4 x5 x6 x7 x8 x9 x10 x11 x12 x13 x14 x17 x18) x19 x20) := by
  unfold val_main_v62 val_main_v61 val_main_v58 val_main_v60 val_main_v59 val_main_call9_v0 val_main_call9_cst
  exact Host.hidden_eq 262144 64 64 _ dot_64_64 _ _ _ _ _ _

end Cert.RefValue

end
-- ==== Proof.RefValue.lean ====
/-
  The reference program's three results at the ideal values are the three heads of the row-wise network of RowNet on all
  262144 rows.

  The reference is read one operation at a time (the generated stages). Its hidden layers are RefLayers' table; here are
  the skip layer, which first joins the input with the fourth hidden layer along the columns, the trunk put together, and
  the three heads: the affine map to 4 entries with its column 0 through softplus and its columns 1..3 through the colour
  map, and the normal head's affine map to 3 entries, tanh and the division by the clamped norm.
-/
import proofs.«110630_j78632261256031_2_alg».proof.Proof.RefLayers

noncomputable section

namespace Cert.RefValue

open Cert.ReferenceIdeal Cert.ReferenceIdeal.Gen Cert.ReferenceIdeal.Read Idealize.ShloMosaic Idealize.ShloMosaic.ValueIdx Cert.Lib.RowLayers
  Cert.RowNet

variable (x0 : Mat 262144 63) (x1 : Mat 63 256) (x2 : Vec1 256) (x3 : Mat 256 256) (x4 : Vec1 256) (x5 : Mat 256 256)
  (x6 : Vec1 256) (x7 : Mat 256 256) (x8 : Vec1 256) (x9 : Mat 319 256) (x10 : Vec1 256) (x11 : Mat 256 256) (x12 : Vec1 256)
  (x13 : Mat 256 256) (x14 : Vec1 256) (x15 : Mat 256 4) (x16 : Vec1 4) (x17 : Mat 256 64) (x18 : Vec1 64) (x19 : Mat 64 64)
  (x20 : Vec1 64) (x21 : Mat 64 3) (x22 : Vec1 3)

/-! ## The skip layer and the trunk -/

theorem layer4 : val_main_v25 (F := Ideal) x0 x1 x2 x3 x4 x5 x6 x7 x8 x9 x10
    = relu _ (affine 262144 319 256
        (sideBySide 262144 63 256 319 rfl x0 (val_main_v19 (F := Ideal) x0 x1 x2 x3 x4 x5 x6 x7 x8)) x9 x10) := by
  unfold val_main_v25 val_main_v24 val_main_v21 val_main_v23 val_main_v22 val_main_call4_v0 val_main_call4_cst val_main_v20
  rw [concat_cols 262144 63 256 319 rfl x0 (val_main_v19 (F := Ideal) x0 x1 x2 x3 x4 x5 x6 x7 x8)
    concatenates_S262144x63_S262144x256_S262144x319_d1]
  exact Host.hidden_eq 262144 319 256 _ dot_319_256 _ _ _ _ _ _

/-- The last hidden layer of the reference is the network's. -/
theorem trunk_eq : val_main_v35 (F := Ideal) x0 x1 x2 x3 x4 x5 x6 x7 x8 x9 x10 x11 x12 x13 x14
    = geo 262144 ⟨x1, x2, x3, x4, x5, x6, x7, x8, x9, x10, x11, x12, x13, x14⟩ x0 := by
  rw [layer6, layer5, layer4, layer3, layer2, layer1, layer0]
  rfl

/-! ## The heads -/

theorem head_eq : val_main_v39 (F := Ideal) x0 x1 x2 x3 x4 x5 x6 x7 x8 x9 x10 x11 x12 x13 x14 x15 x16
    = affine 262144 256 4 (val_main_v35 (F := Ideal) x0 x1 x2 x3 x4 x5 x6 x7 x8 x9 x10 x11 x12 x13 x14) x15 x16 := by
  unfold val_main_v39 val_main_v36 val_main_v38 val_main_v37
  exact Host.affine_eq' 262144 256 4 _ dot_256_4 _ _ _ _ _

theorem density_eq : val_main_v42 (F := Ideal) x0 x1 x2 x3 x4 x5 x6 x7 x8 x9 x10 x11 x12 x13 x14 x15 x16
    = softplus _ (cols 262144 4 0 1 (by decide)
        (val_main_v39 (F := Ideal) x0 x1 x2 x3 x4 x5 x6 x7 x8 x9 x10 x11 x12 x13 x14 x15 x16)) := by
  unfold val_main_v42 val_main_call7_v4 val_main_call7_v6 val_main_call7_v11 val_main_call7_v1 val_main_call7_v10
    val_main_call7_v9 val_main_call7_v8 val_main_call7_v7 val_main_call7_v3 val_main_call7_v0 val_main_call7_v2
    val_main_call7_v5 val_main_call7_cst val_main_v40
  generalize val_main_v39 (F := Ideal) x0 x1 x2 x3 x4 x5 x6 x7 x8 x9 x10 x11 x12 x13 x14 x15 x16 = H
  rw [cols_eq 262144 4 0 1 (by decide) H slices_S262144x4_S262144x1_0_0]
  exact Host.softplus_eq _ _ _

theorem colour_eq : val_main_v52 (F := Ideal) x0 x1 x2 x3 x4 x5 x6 x7 x8 x9 x10 x11 x12 x13 x14 x15 x16
    = colour _ (cols 262144 4 1 3 (by decide)
        (val_main_v39 (F := Ideal) x0 x1 x2 x3 x4 x5 x6 x7 x8 x9 x10 x11 x12 x13 x14 x15 x16)) := by
  unfold val_main_v52 val_main_v51 val_main_cst_2 val_main_v50 val_main_v49 val_main_cst_1 val_main_v48 val_main_v47
    val_main_cst_0 val_main_v46 val_main_v45 val_main_cst val_main_v44 val_main_v43 val_main_v41
  generalize val_main_v39 (F := Ideal) x0 x1 x2 x3 x4 x5 x6 x7 x8 x9 x10 x11 x12 x13 x14 x15 x16 = H
  rw [cols_eq 262144 4 1 3 (by decide) H slices_S262144x4_S262144x3_0_1]
  exact Host.colour_eq _ _ _

theorem nhead_eq : val_main_v66 (F := Ideal) x0 x1 x2 x3 x4 x5 x6 x7 x8 x9 x10 x11 x12 x13 x14 x17 x18 x19 x20 x21 x22
    = affine 262144 64 3
        (val_main_v62 (F := Ideal) x0 x1 x2 x3 x4 x5 x6 x7 x8 x9 x10 x11 x12 x13 x14 x17 x18 x19 x20) x21 x22 := by
  unfold val_main_v66 val_main_v63 val_main_v65 val_main_v64
  exact Host.affine_eq' 262144 64 3 _ dot_64_3 _ _ _ _ _

theorem normal_eq : val_main_v72 (F := Ideal) x0 x1 x2 x3 x4 x5 x6 x7 x8 x9 x10 x11 x12 x13 x14 x17 x18 x19 x20 x21 x22
    = normalize 262144 (tanhA _
        (val_main_v66 (F := Ideal) x0 x1 x2 x3 x4 x5 x6 x7 x8 x9 x10 x11 x12 x13 x14 x17 x18 x19 x20 x21 x22)) := by
  unfold val_main_v72 val_main_v71 val_main_v70 val_main_v69 val_main_cst_3 val_main_v68 val_main_call10_v2
    val_main_call10_v1 val_main_call10_cst val_main_call10_v0 val_main_v67
  generalize val_main_v66 (F := Ideal) x0 x1 x2 x3 x4 x5 x6 x7 x8 x9 x10 x11 x12 x13 x14 x17 x18 x19 x20 x21 x22 = R
  rw [Host.tanh_eq]
  exact Host.normalize_eq 262144 _ reducesTo_S262144x3_S262144_d1 (by decide) h_S_ _ _ _

/-! ## The three results -/

theorem out0_eq : val_main_v42 (F := Ideal) x0 x1 x2 x3 x4 x5 x6 x7 x8 x9 x10 x11 x12 x13 x14 x15 x16
    = density 262144 (geo 262144 ⟨x1, x2, x3, x4, x5, x6, x7, x8, x9, x10, x11, x12, x13, x14⟩ x0) x15 x16 := by
  rw [density_eq, head_eq, trunk_eq]
  rfl

theorem out1_eq : val_main_v52 (F := Ideal) x0 x1 x2 x3 x4 x5 x6 x7 x8 x9 x10 x11 x12 x13 x14 x15 x16
    = rgb 262144 (geo 262144 ⟨x1, x2, x3, x4, x5, x6, x7, x8, x9, x10, x11, x12, x13, x14⟩ x0) x15 x16 := by
  rw [colour_eq, head_eq, trunk_eq]
  rfl

theorem out2_eq : val_main_v72 (F := Ideal) x0 x1 x2 x3 x4 x5 x6 x7 x8 x9 x10 x11 x12 x13 x14 x17 x18 x19 x20 x21 x22
    = normal 262144 (geo 262144 ⟨x1, x2, x3, x4, x5, x6, x7, x8, x9, x10, x11, x12, x13, x14⟩ x0) x17 x18 x19 x20 x21 x22 := by
  rw [normal_eq, nhead_eq, nlayer1, nlayer0, trunk_eq]
  rfl

end Cert.RefValue

end
-- ==== Proof.lean ====
/-
  A multilayer perceptron applied to each of 262144 rows of 63 entries — seven hidden layers of width 256 with a skip
  connection into the fifth, then a density head (softplus), a colour head (logistic, scaled and shifted) and a unit-normal
  head (two more hidden layers, tanh, division by the clamped norm) — computed by a kernel over a grid of 64 blocks of 4096
  rows, against the same network written with whole-array operations.

  The kernel rounds the trunk's operands to bf16 on the way into its products, splits the skip layer's product into the
  input's part and the hidden layer's part, and packs the three heads into one array of eight columns that three slices
  take apart afterwards. At the ideal values (extended reals, every operation exact) a change of float format is the
  identity, a product is a plain sum over the contracted index, and the skip layer's two products add up to the product
  with the joined row because a sum over 63 + 256 terms is the sum of its first 63 and its last 256 terms; every layer
  computes a row of its result from the same row of its operands, so a block of rows of the network is the network of
  that block. No step moves a factor across a sum or cancels anything, so the results agree for all extended reals and
  the precondition is not used.

  The three frames are the generated frame runs (the reference's is its generated run with the results dropped); the
  kernel's idealization rewrote no operation, so there is nothing to preserve; the values are KernelBlocks' run and
  RefValue's three results.
-/
import proofs.«110630_j78632261256031_2_alg».proof.Defs
import proofs.«110630_j78632261256031_2_alg».proof.Proof.Gen.Kernel
import proofs.«110630_j78632261256031_2_alg».proof.Proof.Gen.Kernel.Skeleton
import proofs.«110630_j78632261256031_2_alg».proof.Proof.Gen.Kernel.Launch
import proofs.«110630_j78632261256031_2_alg».proof.Proof.Gen.Kernel.Points
import proofs.«110630_j78632261256031_2_alg».proof.Proof.Gen.Kernel.Frame
import proofs.«110630_j78632261256031_2_alg».proof.Proof.Gen.KernelIdeal
import proofs.«110630_j78632261256031_2_alg».proof.Proof.Gen.KernelIdeal.Skeleton
import proofs.«110630_j78632261256031_2_alg».proof.Proof.Gen.KernelIdeal.Launch
import proofs.«110630_j78632261256031_2_alg».proof.Proof.Gen.KernelIdeal.Points
import proofs.«110630_j78632261256031_2_alg».proof.Proof.Gen.KernelIdeal.Frame
import proofs.«110630_j78632261256031_2_alg».proof.Proof.Gen.ReferenceIdeal
import proofs.«110630_j78632261256031_2_alg».proof.Proof.Gen.Pre_finite_inputs
import proofs.«110630_j78632261256031_2_alg».proof.Proof.Gen.ReferenceIdeal.Run
import proofs.«110630_j78632261256031_2_alg».proof.Proof.Gen.ReferenceIdeal.Read
import proofs.«110630_j78632261256031_2_alg».proof.Proof.KernelBlocks
import proofs.«110630_j78632261256031_2_alg».proof.Proof.RefValue
import Idealize.ShloMosaic.Adequacy
import Idealize.ShloMosaic.Init

noncomputable section

namespace Cert.Proof

open Idealize.ShloMosaic Idealize.ShloMosaic.TcCoe Idealize.SL.Sem Cert.RowNet

/-! ## The reference's results as the network of its own launch memory -/

section Reference

open Cert.ReferenceIdeal

variable (m' : (ℓ : Loc nD τ sig) → Buf (Elt Ideal) ℓ)

/-- The trunk's weights and biases in the reference's launch memory. -/
def θR (c : Dev nD) : Trunk :=
  ⟨m' ((c.tc : Thread nD τ).loc main_arg1), m' ((c.tc : Thread nD τ).loc main_arg2),
    m' ((c.tc : Thread nD τ).loc main_arg3), m' ((c.tc : Thread nD τ).loc main_arg4),
    m' ((c.tc : Thread nD τ).loc main_arg5), m' ((c.tc : Thread nD τ).loc main_arg6),
    m' ((c.tc : Thread nD τ).loc main_arg7), m' ((c.tc : Thread nD τ).loc main_arg8),
    m' ((c.tc : Thread nD τ).loc main_arg9), m' ((c.tc : Thread nD τ).loc main_arg10),
    m' ((c.tc : Thread nD τ).loc main_arg11), m' ((c.tc : Thread nD τ).loc main_arg12),
    m' ((c.tc : Thread nD τ).loc main_arg13), m' ((c.tc : Thread nD τ).loc main_arg14)⟩

/-- The heads' weights and biases in the reference's launch memory. -/
def ηR (c : Dev nD) : Heads :=
  ⟨m' ((c.tc : Thread nD τ).loc main_arg15), m' ((c.tc : Thread nD τ).loc main_arg16),
    m' ((c.tc : Thread nD τ).loc main_arg17), m' ((c.tc : Thread nD τ).loc main_arg18),
    m' ((c.tc : Thread nD τ).loc main_arg19), m' ((c.tc : Thread nD τ).loc main_arg20),
    m' ((c.tc : Thread nD τ).loc main_arg21), m' ((c.tc : Thread nD τ).loc main_arg22)⟩

theorem ref_density (c : Dev nD) :
    Cert.ReferenceIdeal.Value.res_main_v42 m' c
      = density 262144 (geo 262144 (θR m' c) (m' ((c.tc : Thread nD τ).loc main_arg0))) (ηR m' c).W7 (ηR m' c).b7 :=
  (Cert.ReferenceIdeal.Read.val_main_v42_eq m' c).trans (Cert.RefValue.out0_eq _ _ _ _ _ _ _ _ _ _ _ _ _ _ _ _ _)

theorem ref_normal (c : Dev nD) :
    Cert.ReferenceIdeal.Value.res_main_v72 m' c
      = normal 262144 (geo 262144 (θR m' c) (m' ((c.tc : Thread nD τ).loc main_arg0))) (ηR m' c).nW0 (ηR m' c).nb0
          (ηR m' c).nW1 (ηR m' c).nb1 (ηR m' c).nW2 (ηR m' c).nb2 :=
  (Cert.ReferenceIdeal.Read.val_main_v72_eq m' c).trans
    (Cert.RefValue.out2_eq _ _ _ _ _ _ _ _ _ _ _ _ _ _ _ _ _ _ _ _ _)

end Reference

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- From launch memories that agree on the arguments the two programs end with the same three results: each is a head of
    the one network of those arguments. -/
theorem algebraic : Cert.algebraic_KernelIdeal_ReferenceIdeal := by
  intro m ρ m' ρ' _ hagree
  have hθ : ∀ c, θR m' c = Cert.KernelBlocks.θ m c := fun c => by
    obtain ⟨a0, a1, a2, a3, a4, a5, a6, a7, a8, a9, a10, a11, a12, a13, a14, a15, a16, a17, a18, a19, a20, a21, a22⟩ :=
      hagree c
    unfold θR Cert.KernelBlocks.θ
    rw [a1, a2, a3, a4, a5, a6, a7, a8, a9, a10, a11, a12, a13, a14]
  have hη : ∀ c, ηR m' c = Cert.KernelBlocks.η m c := fun c => by
    obtain ⟨a0, a1, a2, a3, a4, a5, a6, a7, a8, a9, a10, a11, a12, a13, a14, a15, a16, a17, a18, a19, a20, a21, a22⟩ :=
      hagree c
    unfold ηR Cert.KernelBlocks.η
    rw [a15, a16, a17, a18, a19, a20, a21, a22]
  refine ⟨_, _, _, (θ_run Cert.KernelIdeal.defs _ _).mono (fun r h c =>
      ⟨(h c).1.1, (h c).1.2.1, (h c).1.2.2, Cert.KernelBlocks.kept m r (h c).2 c⟩) (Cert.KernelBlocks.run m ρ), ?_⟩
  refine (θ_run Cert.ReferenceIdeal.defs _ _).mono (fun r h c => ?_) (Cert.ReferenceIdeal.Value.run (F := Ideal) m' ρ')
  obtain ⟨h42, h52, h72, hargs⟩ := h c
  refine ⟨?_, ?_, ?_, hargs⟩
  · rw [h42, ref_density m' c, hθ c, hη c, (hagree c).1]
  · refine h52.trans (((Cert.ReferenceIdeal.Read.val_main_v52_eq _ _ _ _ _ _ _ _ _ _ _ _ _ _ _ _ _).trans
      (Cert.RefValue.out1_eq _ _ _ _ _ _ _ _ _ _ _ _ _ _ _ _ _)).trans ?_)
    show rgb 262144 (geo 262144 (θR m' c) _) (ηR m' c).W7 (ηR m' c).b7 = _
    rw [hθ c, hη c, (hagree c).1]
  · rw [h72, ref_normal m' c, hθ c, hη c, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
